-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S2x32x4096 : Shape := ⟨3, ![2, 32, 4096]⟩
abbrev S2x16384x4096 : Shape := ⟨3, ![2, 16384, 4096]⟩
abbrev S2x16384 : Shape := ⟨2, ![2, 16384]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S2x32x4096 : S_.BroadcastsInDim S2x32x4096 (![] : Fin 0 → Fin S2x32x4096.rank)
  reducesTo_S2x32x4096_S_d0_1_2 : S2x32x4096.ReducesTo [0, 1, 2] S_
  bcast_S_S2x16384x4096 : S_.BroadcastsInDim S2x16384x4096 (![] : Fin 0 → Fin S2x16384x4096.rank)
  reducesTo_S2x16384x4096_S_d0_1_2 : S2x16384x4096.ReducesTo [0, 1, 2] S_
  bcast_S_S2x16384 : S_.BroadcastsInDim S2x16384 (![] : Fin 0 → Fin S2x16384.rank)
  reducesTo_S2x16384_S_d0_1 : S2x16384.ReducesTo [0, 1] S_

variable [Facts]

def fn_part1 {F : FTy → Type} [FloatOps F] (main_arg4 : FVec F S2x16384x4096 .f32) (main_arg5 : FVec F S2x16384 .f32) (main_arg6 : FVec F S2x16384 .f32) (main_v13 : IVec S_ 1) (main_v16 : IVec S2x16384x4096 1) : IVec S_ 1 :=
  let main_c_5 : IVec S_ 1 := constantI S_ 1 1#1
  let main_v17 : IVec S_ 1 := (fun x v => Host.reduce IntOp.andi x v reducesTo_S2x16384x4096_S_d0_1_2 h_S_) main_v16 main_c_5
  let main_v18 : IVec S_ 1 := andi main_v13 main_v17
  let main_v19 : FVec F S2x16384x4096 .f32 := Host.absf main_arg4
  let main_cst_6 : FVec F S_ .f32 := constant S_ .f32 0x7F800000#32
  let main_v20 : FVec F S2x16384x4096 .f32 := broadcastInDim S2x16384x4096 ![] bcast_S_S2x16384x4096 main_cst_6
  let main_v21 : IVec S2x16384x4096 1 := cmpf .olt main_v19 main_v20
  let main_c_7 : IVec S_ 1 := constantI S_ 1 1#1
  let main_v22 : IVec S_ 1 := (fun x v => Host.reduce IntOp.andi x v reducesTo_S2x16384x4096_S_d0_1_2 h_S_) main_v21 main_c_7
  let main_v23 : IVec S_ 1 := andi main_v18 main_v22
  let main_v24 : FVec F S2x16384 .f32 := Host.absf main_arg5
  let main_cst_8 : FVec F S_ .f32 := constant S_ .f32 0x7F800000#32
  let main_v25 : FVec F S2x16384 .f32 := broadcastInDim S2x16384 ![] bcast_S_S2x16384 main_cst_8
  let main_v26 : IVec S2x16384 1 := cmpf .olt main_v24 main_v25
  let main_c_9 : IVec S_ 1 := constantI S_ 1 1#1
  let main_v27 : IVec S_ 1 := (fun x v => Host.reduce IntOp.andi x v reducesTo_S2x16384_S_d0_1 h_S_) main_v26 main_c_9
  let main_v28 : IVec S_ 1 := andi main_v23 main_v27
  let main_v29 : FVec F S2x16384 .f32 := Host.absf main_arg6
  let main_cst_10 : FVec F S_ .f32 := constant S_ .f32 0x7F800000#32
  let main_v30 : FVec F S2x16384 .f32 := broadcastInDim S2x16384 ![] bcast_S_S2x16384 main_cst_10
  let main_v31 : IVec S2x16384 1 := cmpf .olt main_v29 main_v30
  let main_c_11 : IVec S_ 1 := constantI S_ 1 1#1
  let main_v32 : IVec S_ 1 := (fun x v => Host.reduce IntOp.andi x v reducesTo_S2x16384_S_d0_1 h_S_) main_v31 main_c_11
  let main_v33 : IVec S_ 1 := andi main_v28 main_v32
  main_v33

def fn {F : FTy → Type} [FloatOps F] (main_arg0 : FVec F S32x4096 .f32) (main_arg1 : FVec F S2x32x4096 .f32) (main_arg2 : FVec F S2x32x4096 .f32) (main_arg3 : FVec F S2x16384x4096 .f32) (main_arg4 : FVec F S2x16384x4096 .f32) (main_arg5 : FVec F S2x16384 .f32) (main_arg6 : FVec F S2x16384 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S2x32x4096 .f32 := Host.absf main_arg1
  let main_cst_0 : FVec F S_ .f32 := constant S_ .f32 0x7F800000#32
  let main_v5 : FVec F S2x32x4096 .f32 := broadcastInDim S2x32x4096 ![] bcast_S_S2x32x4096 main_cst_0
  let main_v6 : IVec S2x32x4096 1 := cmpf .olt main_v4 main_v5
  let main_c_1 : IVec S_ 1 := constantI S_ 1 1#1
  let main_v7 : IVec S_ 1 := (fun x v => Host.reduce IntOp.andi x v reducesTo_S2x32x4096_S_d0_1_2 h_S_) main_v6 main_c_1
  let main_v8 : IVec S_ 1 := andi main_v3 main_v7
  let main_v9 : FVec F S2x32x4096 .f32 := Host.absf main_arg2
  let main_cst_2 : FVec F S_ .f32 := constant S_ .f32 0x7F800000#32
  let main_v10 : FVec F S2x32x4096 .f32 := broadcastInDim S2x32x4096 ![] bcast_S_S2x32x4096 main_cst_2
  let main_v11 : IVec S2x32x4096 1 := cmpf .olt main_v9 main_v10
  let main_c_3 : IVec S_ 1 := constantI S_ 1 1#1
  let main_v12 : IVec S_ 1 := (fun x v => Host.reduce IntOp.andi x v reducesTo_S2x32x4096_S_d0_1_2 h_S_) main_v11 main_c_3
  let main_v13 : IVec S_ 1 := andi main_v8 main_v12
  let main_v14 : FVec F S2x16384x4096 .f32 := Host.absf main_arg3
  let main_cst_4 : FVec F S_ .f32 := constant S_ .f32 0x7F800000#32
  let main_v15 : FVec F S2x16384x4096 .f32 := broadcastInDim S2x16384x4096 ![] bcast_S_S2x16384x4096 main_cst_4
  let main_v16 : IVec S2x16384x4096 1 := cmpf .olt main_v14 main_v15
  fn_part1 (F := F) main_arg4 main_arg5 main_arg6 main_v13 main_v16
-- ==== Kernel.lean ====
abbrev S32x4096 : Shape := ⟨2, ![32, 4096]⟩
abbrev S2x32x4096 : Shape := ⟨3, ![2, 32, 4096]⟩
abbrev S2x16384x4096 : Shape := ⟨3, ![2, 16384, 4096]⟩
abbrev S2x16384 : Shape := ⟨2, ![2, 16384]⟩
abbrev S1x32x4096 : Shape := ⟨3, ![1, 32, 4096]⟩
abbrev S1x16384x4096 : Shape := ⟨3, ![1, 16384, 4096]⟩
abbrev S16384x4096 : Shape := ⟨2, ![16384, 4096]⟩
abbrev S1x16384 : Shape := ⟨2, ![1, 16384]⟩
abbrev S16384 : Shape := ⟨1, ![16384]⟩
abbrev S32x16384 : Shape := ⟨2, ![32, 16384]⟩
abbrev S256x4096 : Shape := ⟨2, ![256, 4096]⟩
abbrev S1x256 : Shape := ⟨2, ![1, 256]⟩
abbrev S32x256 : Shape := ⟨2, ![32, 256]⟩
abbrev S_ : Shape := ⟨0, ![]⟩
abbrev S1x2x32x4096 : Shape := ⟨4, ![1, 2, 32, 4096]⟩
abbrev S2x2x32x4096 : Shape := ⟨4, ![2, 2, 32, 4096]⟩

abbrev nBuf : Space → Nat
  | .hbm => 114
  | .vmem => 24
  | .smem => 0
  | _ => 0

abbrev bufTy : (tb : Table) → Fin (tcTables nBuf tb) → BufTy
  | .hbm, ⟨0, _⟩ => ⟨S32x4096, .f32⟩
  | .hbm, ⟨1, _⟩ => ⟨S2x32x4096, .f32⟩
  | .hbm, ⟨2, _⟩ => ⟨S2x32x4096, .f32⟩
  | .hbm, ⟨3, _⟩ => ⟨S2x16384x4096, .f32⟩
  | .hbm, ⟨4, _⟩ => ⟨S2x16384x4096, .f32⟩
  | .hbm, ⟨5, _⟩ => ⟨S2x16384, .f32⟩
  | .hbm, ⟨6, _⟩ => ⟨S2x16384, .f32⟩
  | .hbm, ⟨7, _⟩ => ⟨S1x32x4096, .f32⟩
  | .hbm, ⟨8, _⟩ => ⟨S32x4096, .f32⟩
  | .hbm, ⟨9, _⟩ => ⟨S1x32x4096, .f32⟩
  | .hbm, ⟨10, _⟩ => ⟨S32x4096, .f32⟩
  | .hbm, ⟨11, _⟩ => ⟨S1x16384x4096, .f32⟩
  | .hbm, ⟨12, _⟩ => ⟨S16384x4096, .f32⟩
  | .hbm, ⟨13, _⟩ => ⟨S1x16384x4096, .f32⟩
  | .hbm, ⟨14, _⟩ => ⟨S16384x4096, .f32⟩
  | .hbm, ⟨15, _⟩ => ⟨S1x16384, .f32⟩
  | .hbm, ⟨16, _⟩ => ⟨S16384, .f32⟩
  | .hbm, ⟨17, _⟩ => ⟨S1x16384, .f32⟩
  | .hbm, ⟨18, _⟩ => ⟨S16384, .f32⟩
  | .hbm, ⟨19, _⟩ => ⟨S1x16384, .f32⟩
  | .hbm, ⟨20, _⟩ => ⟨S1x16384, .f32⟩
  | .hbm, ⟨21, _⟩ => ⟨S32x16384, .f32⟩
  | .hbm, ⟨22, _⟩ => ⟨S32x4096, .f32⟩
  | .hbm, ⟨23, _⟩ => ⟨S32x4096, .f32⟩
  | .hbm, ⟨24, _⟩ => ⟨S32x4096, .f32⟩
  | .hbm, ⟨25, _⟩ => ⟨S32x4096, .f32⟩
  | .hbm, ⟨26, _⟩ => ⟨S32x4096, .f32⟩
  | .hbm, ⟨27, _⟩ => ⟨S32x4096, .f32⟩
  | .hbm, ⟨28, _⟩ => ⟨S_, .f32⟩
  | .hbm, ⟨29, _⟩ => ⟨S32x4096, .f32⟩
  | .hbm, ⟨30, _⟩ => ⟨S32x4096, .f32⟩
  | .hbm, ⟨31, _⟩ => ⟨S_, .f32⟩
  | .hbm, ⟨32, _⟩ => ⟨S32x4096, .f32⟩
  | .hbm, ⟨33, _⟩ => ⟨S32x4096, .f32⟩
  | .hbm, ⟨34, _⟩ => ⟨S32x4096, .f32⟩
  | .hbm, ⟨35, _⟩ => ⟨S32x4096, .f32⟩
  | .hbm, ⟨36, _⟩ => ⟨S32x4096, .f32⟩
  | .hbm, ⟨37, _⟩ => ⟨S_, .f32⟩
  | .hbm, ⟨38, _⟩ => ⟨S32x4096, .f32⟩
  | .hbm, ⟨39, _⟩ => ⟨S32x4096, .f32⟩
  | .hbm, ⟨40, _⟩ => ⟨S_, .f32⟩
  | .hbm, ⟨41, _⟩ => ⟨S32x4096, .f32⟩
  | .hbm, ⟨42, _⟩ => ⟨S32x4096, .f32⟩
  | .hbm, ⟨43, _⟩ => ⟨S32x4096, .f32⟩
  | .hbm, ⟨44, _⟩ => ⟨S32x4096, .f32⟩
  | .hbm, ⟨45, _⟩ => ⟨S32x4096, .f32⟩
  | .hbm, ⟨46, _⟩ => ⟨S32x4096, .f32⟩
  | .hbm, ⟨47, _⟩ => ⟨S32x4096, .f32⟩
  | .hbm, ⟨48, _⟩ => ⟨S_, .f32⟩
  | .hbm, ⟨49, _⟩ => ⟨S32x4096, .f32⟩
  | .hbm, ⟨50, _⟩ => ⟨S32x4096, .f32⟩
  | .hbm, ⟨51, _⟩ => ⟨S_, .f32⟩
  | .hbm, ⟨52, _⟩ => ⟨S32x4096, .f32⟩
  | .hbm, ⟨53, _⟩ => ⟨S32x4096, .f32⟩
  | .hbm, ⟨54, _⟩ => ⟨S32x4096, .f32⟩
  | .hbm, ⟨55, _⟩ => ⟨S32x4096, .f32⟩
  | .hbm, ⟨56, _⟩ => ⟨S1x32x4096, .f32⟩
  | .hbm, ⟨57, _⟩ => ⟨S32x4096, .f32⟩
  | .hbm, ⟨58, _⟩ => ⟨S1x32x4096, .f32⟩
  | .hbm, ⟨59, _⟩ => ⟨S32x4096, .f32⟩
  | .hbm, ⟨60, _⟩ => ⟨S1x16384x4096, .f32⟩
  | .hbm, ⟨61, _⟩ => ⟨S16384x4096, .f32⟩
  | .hbm, ⟨62, _⟩ => ⟨S1x16384x4096, .f32⟩
  | .hbm, ⟨63, _⟩ => ⟨S16384x4096, .f32⟩
  | .hbm, ⟨64, _⟩ => ⟨S1x16384, .f32⟩
  | .hbm, ⟨65, _⟩ => ⟨S16384, .f32⟩
  | .hbm, ⟨66, _⟩ => ⟨S1x16384, .f32⟩
  | .hbm, ⟨67, _⟩ => ⟨S16384, .f32⟩
  | .hbm, ⟨68, _⟩ => ⟨S1x16384, .f32⟩
  | .hbm, ⟨69, _⟩ => ⟨S1x16384, .f32⟩
  | .hbm, ⟨70, _⟩ => ⟨S32x16384, .f32⟩
  | .hbm, ⟨71, _⟩ => ⟨S32x4096, .f32⟩
  | .hbm, ⟨72, _⟩ => ⟨S32x4096, .f32⟩
  | .hbm, ⟨73, _⟩ => ⟨S32x4096, .f32⟩
  | .hbm, ⟨74, _⟩ => ⟨S32x4096, .f32⟩
  | .hbm, ⟨75, _⟩ => ⟨S32x4096, .f32⟩
  | .hbm, ⟨76, _⟩ => ⟨S32x4096, .f32⟩
  | .hbm, ⟨77, _⟩ => ⟨S_, .f32⟩
  | .hbm, ⟨78, _⟩ => ⟨S32x4096, .f32⟩
  | .hbm, ⟨79, _⟩ => ⟨S32x4096, .f32⟩
  | .hbm, ⟨80, _⟩ => ⟨S_, .f32⟩
  | .hbm, ⟨81, _⟩ => ⟨S32x4096, .f32⟩
  | .hbm, ⟨82, _⟩ => ⟨S32x4096, .f32⟩
  | .hbm, ⟨83, _⟩ => ⟨S32x4096, .f32⟩
  | .hbm, ⟨84, _⟩ => ⟨S32x4096, .f32⟩
  | .hbm, ⟨85, _⟩ => ⟨S32x4096, .f32⟩
  | .hbm, ⟨86, _⟩ => ⟨S_, .f32⟩
  | .hbm, ⟨87, _⟩ => ⟨S32x4096, .f32⟩
  | .hbm, ⟨88, _⟩ => ⟨S32x4096, .f32⟩
  | .hbm, ⟨89, _⟩ => ⟨S_, .f32⟩
  | .hbm, ⟨90, _⟩ => ⟨S32x4096, .f32⟩
  | .hbm, ⟨91, _⟩ => ⟨S32x4096, .f32⟩
  | .hbm, ⟨92, _⟩ => ⟨S32x4096, .f32⟩
  | .hbm, ⟨93, _⟩ => ⟨S32x4096, .f32⟩
  | .hbm, ⟨94, _⟩ => ⟨S32x4096, .f32⟩
  | .hbm, ⟨95, _⟩ => ⟨S32x4096, .f32⟩
  | .hbm, ⟨96, _⟩ => ⟨S32x4096, .f32⟩
  | .hbm, ⟨97, _⟩ => ⟨S_, .f32⟩
  | .hbm, ⟨98, _⟩ => ⟨S32x4096, .f32⟩
  | .hbm, ⟨99, _⟩ => ⟨S32x4096, .f32⟩
  | .hbm, ⟨100, _⟩ => ⟨S_, .f32⟩
  | .hbm, ⟨101, _⟩ => ⟨S32x4096, .f32⟩
  | .hbm, ⟨102, _⟩ => ⟨S32x4096, .f32⟩
  | .hbm, ⟨103, _⟩ => ⟨S32x4096, .f32⟩
  | .hbm, ⟨104, _⟩ => ⟨S32x4096, .f32⟩
  | .hbm, ⟨105, _⟩ => ⟨S1x32x4096, .f32⟩
  | .hbm, ⟨106, _⟩ => ⟨S1x32x4096, .f32⟩
  | .hbm, ⟨107, _⟩ => ⟨S2x32x4096, .f32⟩
  | .hbm, ⟨108, _⟩ => ⟨S1x32x4096, .f32⟩
  | .hbm, ⟨109, _⟩ => ⟨S1x32x4096, .f32⟩
  | .hbm, ⟨110, _⟩ => ⟨S2x32x4096, .f32⟩
  | .hbm, ⟨111, _⟩ => ⟨S1x2x32x4096, .f32⟩
  | .hbm, ⟨112, _⟩ => ⟨S1x2x32x4096, .f32⟩
  | .hbm, ⟨113, _⟩ => ⟨S2x2x32x4096, .f32⟩
  | .local _ .vmem, ⟨0, _⟩ => ⟨S32x4096, .f32⟩
  | .local _ .vmem, ⟨1, _⟩ => ⟨S32x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S32x256, .f32⟩
  | .local _ .vmem, ⟨11, _⟩ => ⟨S32x256, .f32⟩
  | .local _ .vmem, ⟨12, _⟩ => ⟨S32x4096, .f32⟩
  | .local _ .vmem, ⟨13, _⟩ => ⟨S32x4096, .f32⟩
  | .local _ .vmem, ⟨14, _⟩ => ⟨S256x4096, .f32⟩
  | .local _ .vmem, ⟨15, _⟩ => ⟨S256x4096, .f32⟩
  | .local _ .vmem, ⟨16, _⟩ => ⟨S256x4096, .f32⟩
  | .local _ .vmem, ⟨17, _⟩ => ⟨S256x4096, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S32x256, .f32⟩
  | .local _ .vmem, ⟨23, _⟩ => ⟨S32x256, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_5 : Ref sig .tc := ⟨.hbm, 77, rfl⟩
abbrev main_v64 : Ref sig .tc := ⟨.hbm, 78, rfl⟩
abbrev main_v65 : Ref sig .tc := ⟨.hbm, 79, rfl⟩
abbrev main_cst_6 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_7 : Ref sig .tc := ⟨.hbm, 86, rfl⟩
abbrev main_v71 : Ref sig .tc := ⟨.hbm, 87, rfl⟩
abbrev main_v72 : Ref sig .tc := ⟨.hbm, 88, rfl⟩
abbrev main_cst_8 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_9 : Ref sig .tc := ⟨.hbm, 97, rfl⟩
abbrev main_v80 : Ref sig .tc := ⟨.hbm, 98, rfl⟩
abbrev main_v81 : Ref sig .tc := ⟨.hbm, 99, rfl⟩
abbrev main_cst_10 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S32x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S32x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x32x4096_S1x32x4096_0_0_0 : S2x32x4096.Slices ![0, 0, 0] S1x32x4096
  shapeCasts_S1x32x4096_S32x4096 : S1x32x4096.ShapeCasts S32x4096
  slices_S2x16384x4096_S1x16384x4096_0_0_0 : S2x16384x4096.Slices ![0, 0, 0] S1x16384x4096
  shapeCasts_S1x16384x4096_S16384x4096 : S1x16384x4096.ShapeCasts S16384x4096
  slices_S2x16384_S1x16384_0_0 : S2x16384.Slices ![0, 0] S1x16384
  shapeCasts_S1x16384_S16384 : S1x16384.ShapeCasts S16384
  shapeCasts_S16384_S1x16384 : S16384.ShapeCasts S1x16384
  inb_S32x4096_S32x4096_0_0 : ∀ a, (![0, 0] : Fin 2 → Nat) a + S32x4096.size a ≤ S32x4096.size a
  h_S32x4096 : 0 < S32x4096.numel
  bitsLt_bf16_f32 : FTy.bits .bf16 < FTy.bits .f32
  shapeCasts_S32x4096_S32x4096 : S32x4096.ShapeCasts S32x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  inb_S32x256_S32x256_0_0 : ∀ a, (![0, 0] : Fin 2 → Nat) a + S32x256.size a ≤ S32x256.size a
  h_S32x256 : 0 < S32x256.numel
  slices_S32x16384_S32x4096_0_0 : S32x16384.Slices ![0, 0] S32x4096
  slices_S32x16384_S32x4096_0_4096 : S32x16384.Slices ![0, 4096] S32x4096
  slices_S32x16384_S32x4096_0_8192 : S32x16384.Slices ![0, 8192] S32x4096
  slices_S32x16384_S32x4096_0_12288 : S32x16384.Slices ![0, 12288] S32x4096
  bcast_S_S32x4096 : S_.BroadcastsInDim S32x4096 (![] : Fin 0 → Fin S32x4096.rank)
  slices_S2x32x4096_S1x32x4096_1_0_0 : S2x32x4096.Slices ![1, 0, 0] S1x32x4096
  slices_S2x16384x4096_S1x16384x4096_1_0_0 : S2x16384x4096.Slices ![1, 0, 0] S1x16384x4096
  slices_S2x16384_S1x16384_1_0 : S2x16384.Slices ![1, 0] S1x16384
  bcast_S32x4096_S1x32x4096_1_2 : S32x4096.BroadcastsInDim S1x32x4096 (![1, 2] : Fin 2 → Fin S1x32x4096.rank)
  concatenates_S1x32x4096_S1x32x4096_S2x32x4096_d0 : Shape.Concatenates [S1x32x4096, S1x32x4096] S2x32x4096 0
  bcast_S2x32x4096_S1x2x32x4096_1_2_3 : S2x32x4096.BroadcastsInDim S1x2x32x4096 (![1, 2, 3] : Fin 3 → Fin S1x2x32x4096.rank)
  concatenates_S1x2x32x4096_S1x2x32x4096_S2x2x32x4096_d0 : Shape.Concatenates [S1x2x32x4096, S1x2x32x4096] S2x2x32x4096 0
  dot_S32x4096_S256x4096_S32x256_1_1_0_0_n_n_wf : DotDims.WF S32x4096 S256x4096 S32x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .f32 = 32 ∨ (Rect.block (s := S32x4096) S32x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x4096.size a ≤ S32x4096.size a
  hwx0_1 : ∀ i : grid0.Coords, EltTy.bits .f32 = 32 ∨ (Rect.block (s := S32x4096) S32x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S16384x4096.size a
  hwx0_2 : ∀ i : grid0.Coords, EltTy.bits .f32 = 32 ∨ (Rect.block (s := S16384x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .f32 = 32 ∨ (Rect.block (s := S16384x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x16384.size a
  hwx0_4 : ∀ i : grid0.Coords, EltTy.bits .f32 = 32 ∨ (Rect.block (s := S1x16384) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x16384.size a
  hwx0_5 : ∀ i : grid0.Coords, EltTy.bits .f32 = 32 ∨ (Rect.block (s := S1x16384) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x256.size a ≤ S32x16384.size a
  hwx0_6 : ∀ i : grid0.Coords, EltTy.bits .f32 = 32 ∨ (Rect.block (s := S32x16384) S32x256.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x4096.size a ≤ S32x4096.size a
  hwx1_0 : ∀ i : grid1.Coords, EltTy.bits .f32 = 32 ∨ (Rect.block (s := S32x4096) S32x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x4096.size a ≤ S32x4096.size a
  hwx1_1 : ∀ i : grid1.Coords, EltTy.bits .f32 = 32 ∨ (Rect.block (s := S32x4096) S32x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S16384x4096.size a
  hwx1_2 : ∀ i : grid1.Coords, EltTy.bits .f32 = 32 ∨ (Rect.block (s := S16384x4096) S256x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S16384x4096.size a
  hwx1_3 : ∀ i : grid1.Coords, EltTy.bits .f32 = 32 ∨ (Rect.block (s := S16384x4096) S256x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x16384.size a
  hwx1_4 : ∀ i : grid1.Coords, EltTy.bits .f32 = 32 ∨ (Rect.block (s := S1x16384) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x16384.size a
  hwx1_5 : ∀ i : grid1.Coords, EltTy.bits .f32 = 32 ∨ (Rect.block (s := S1x16384) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S32x256.size a ≤ S32x16384.size a
  hwx1_6 : ∀ i : grid1.Coords, EltTy.bits .f32 = 32 ∨ (Rect.block (s := S32x16384) S32x256.size (cc1_transform_6 i) (hinb1_6 i)).WholeWords (EltTy.packing .f32)

variable [Facts₀]

def dot_S32x4096_S256x4096_S32x256_1_1_0_0_n_n : DotDims S32x4096 S256x4096 S32x256 where
  lhsContracting := [1]
  rhsContracting := [1]
  lhsNonContracting := [0]
  rhsNonContracting := [0]
  lhsBatch := []
  rhsBatch := []
  wf := dot_S32x4096_S256x4096_S32x256_1_1_0_0_n_n_wf

abbrev win0_0 : Pipeline.Window sig grid0 :=
  Pipeline.Window.ofSpec (Memref.whole main_arg0) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14) S32x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v42) S32x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v44) S32x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S256x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v55) S1x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v56) S1x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v57) S32x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S32x4096 : Shape := ⟨2, ![32, 4096]⟩
abbrev S2x32x4096 : Shape := ⟨3, ![2, 32, 4096]⟩
abbrev S2x16384x4096 : Shape := ⟨3, ![2, 16384, 4096]⟩
abbrev S2x16384 : Shape := ⟨2, ![2, 16384]⟩
abbrev S1x32x4096 : Shape := ⟨3, ![1, 32, 4096]⟩
abbrev S1x16384x4096 : Shape := ⟨3, ![1, 16384, 4096]⟩
abbrev S16384x4096 : Shape := ⟨2, ![16384, 4096]⟩
abbrev S1x16384 : Shape := ⟨2, ![1, 16384]⟩
abbrev S16384 : Shape := ⟨1, ![16384]⟩
abbrev S4096x16384 : Shape := ⟨2, ![4096, 16384]⟩
abbrev S32x16384 : Shape := ⟨2, ![32, 16384]⟩
abbrev S_ : Shape := ⟨0, ![]⟩
abbrev S1x2x32x4096 : Shape := ⟨4, ![1, 2, 32, 4096]⟩
abbrev S2x2x32x4096 : Shape := ⟨4, ![2, 2, 32, 4096]⟩

abbrev nBuf : Space → Nat
  | .hbm => 130
  | .vmem => 0
  | .smem => 0
  | _ => 0

abbrev hbmTy0_0 (i : Nat) : BufTy := match i % 128 with
  | 0 => ⟨S32x4096, .f32⟩
  | 1 => ⟨S2x32x4096, .f32⟩
  | 2 => ⟨S2x32x4096, .f32⟩
  | 3 => ⟨S2x16384x4096, .f32⟩
  | 4 => ⟨S2x16384x4096, .f32⟩
  | 5 => ⟨S2x16384, .f32⟩
  | 6 => ⟨S2x16384, .f32⟩
  | 7 => ⟨S1x32x4096, .f32⟩
  | 8 => ⟨S32x4096, .f32⟩
  | 9 => ⟨S1x32x4096, .f32⟩
  | 10 => ⟨S32x4096, .f32⟩
  | 11 => ⟨S1x16384x4096, .f32⟩
  | 12 => ⟨S16384x4096, .f32⟩
  | 13 => ⟨S1x16384x4096, .f32⟩
  | 14 => ⟨S16384x4096, .f32⟩
  | 15 => ⟨S1x16384, .f32⟩
  | 16 => ⟨S16384, .f32⟩
  | 17 => ⟨S1x16384, .f32⟩
  | 18 => ⟨S16384, .f32⟩
  | 19 => ⟨S4096x16384, .f32⟩
  | 20 => ⟨S32x16384, .f32⟩
  | 21 => ⟨S1x16384, .f32⟩
  | 22 => ⟨S32x16384, .f32⟩
  | 23 => ⟨S32x16384, .f32⟩
  | 24 => ⟨S4096x16384, .f32⟩
  | 25 => ⟨S32x16384, .f32⟩
  | 26 => ⟨S32x16384, .f32⟩
  | 27 => ⟨S1x16384, .f32⟩
  | 28 => ⟨S32x16384, .f32⟩
  | 29 => ⟨S32x16384, .f32⟩
  | 30 => ⟨S32x4096, .f32⟩
  | 31 => ⟨S32x4096, .f32⟩
  | 32 => ⟨S32x4096, .f32⟩
  | 33 => ⟨S32x4096, .f32⟩
  | 34 => ⟨S32x4096, .f32⟩
  | 35 => ⟨S32x4096, .f32⟩
  | 36 => ⟨S_, .f32⟩
  | 37 => ⟨S32x4096, .f32⟩
  | 38 => ⟨S32x4096, .f32⟩
  | 39 => ⟨S_, .f32⟩
  | 40 => ⟨S32x4096, .f32⟩
  | 41 => ⟨S32x4096, .f32⟩
  | 42 => ⟨S32x4096, .f32⟩
  | 43 => ⟨S32x4096, .f32⟩
  | 44 => ⟨S32x4096, .f32⟩
  | 45 => ⟨S_, .f32⟩
  | 46 => ⟨S32x4096, .f32⟩
  | 47 => ⟨S32x4096, .f32⟩
  | 48 => ⟨S_, .f32⟩
  | 49 => ⟨S32x4096, .f32⟩
  | 50 => ⟨S32x4096, .f32⟩
  | 51 => ⟨S32x4096, .f32⟩
  | 52 => ⟨S32x4096, .f32⟩
  | 53 => ⟨S32x4096, .f32⟩
  | 54 => ⟨S32x4096, .f32⟩
  | 55 => ⟨S32x4096, .f32⟩
  | 56 => ⟨S_, .f32⟩
  | 57 => ⟨S32x4096, .f32⟩
  | 58 => ⟨S32x4096, .f32⟩
  | 59 => ⟨S_, .f32⟩
  | 60 => ⟨S32x4096, .f32⟩
  | 61 => ⟨S32x4096, .f32⟩
  | 62 => ⟨S32x4096, .f32⟩
  | 63 => ⟨S32x4096, .f32⟩
  | 64 => ⟨S1x32x4096, .f32⟩
  | 65 => ⟨S32x4096, .f32⟩
  | 66 => ⟨S1x32x4096, .f32⟩
  | 67 => ⟨S32x4096, .f32⟩
  | 68 => ⟨S1x16384x4096, .f32⟩
  | 69 => ⟨S16384x4096, .f32⟩
  | 70 => ⟨S1x16384x4096, .f32⟩
  | 71 => ⟨S16384x4096, .f32⟩
  | 72 => ⟨S1x16384, .f32⟩
  | 73 => ⟨S16384, .f32⟩
  | 74 => ⟨S1x16384, .f32⟩
  | 75 => ⟨S16384, .f32⟩
  | 76 => ⟨S4096x16384, .f32⟩
  | 77 => ⟨S32x16384, .f32⟩
  | 78 => ⟨S1x16384, .f32⟩
  | 79 => ⟨S32x16384, .f32⟩
  | 80 => ⟨S32x16384, .f32⟩
  | 81 => ⟨S4096x16384, .f32⟩
  | 82 => ⟨S32x16384, .f32⟩
  | 83 => ⟨S32x16384, .f32⟩
  | 84 => ⟨S1x16384, .f32⟩
  | 85 => ⟨S32x16384, .f32⟩
  | 86 => ⟨S32x16384, .f32⟩
  | 87 => ⟨S32x4096, .f32⟩
  | 88 => ⟨S32x4096, .f32⟩
  | 89 => ⟨S32x4096, .f32⟩
  | 90 => ⟨S32x4096, .f32⟩
  | 91 => ⟨S32x4096, .f32⟩
  | 92 => ⟨S32x4096, .f32⟩
  | 93 => ⟨S_, .f32⟩
  | 94 => ⟨S32x4096, .f32⟩
  | 95 => ⟨S32x4096, .f32⟩
  | 96 => ⟨S_, .f32⟩
  | 97 => ⟨S32x4096, .f32⟩
  | 98 => ⟨S32x4096, .f32⟩
  | 99 => ⟨S32x4096, .f32⟩
  | 100 => ⟨S32x4096, .f32⟩
  | 101 => ⟨S32x4096, .f32⟩
  | 102 => ⟨S_, .f32⟩
  | 103 => ⟨S32x4096, .f32⟩
  | 104 => ⟨S32x4096, .f32⟩
  | 105 => ⟨S_, .f32⟩
  | 106 => ⟨S32x4096, .f32⟩
  | 107 => ⟨S32x4096, .f32⟩
  | 108 => ⟨S32x4096, .f32⟩
  | 109 => ⟨S32x4096, .f32⟩
  | 110 => ⟨S32x4096, .f32⟩
  | 111 => ⟨S32x4096, .f32⟩
  | 112 => ⟨S32x4096, .f32⟩
  | 113 => ⟨S_, .f32⟩
  | 114 => ⟨S32x4096, .f32⟩
  | 115 => ⟨S32x4096, .f32⟩
  | 116 => ⟨S_, .f32⟩
  | 117 => ⟨S32x4096, .f32⟩
  | 118 => ⟨S32x4096, .f32⟩
  | 119 => ⟨S32x4096, .f32⟩
  | 120 => ⟨S32x4096, .f32⟩
  | 121 => ⟨S1x32x4096, .f32⟩
  | 122 => ⟨S1x32x4096, .f32⟩
  | 123 => ⟨S2x32x4096, .f32⟩
  | 124 => ⟨S1x32x4096, .f32⟩
  | 125 => ⟨S1x32x4096, .f32⟩
  | 126 => ⟨S2x32x4096, .f32⟩
  | 127 => ⟨S1x2x32x4096, .f32⟩
  | _ => ⟨S32x4096, .f32⟩

abbrev hbmTy0_1 (i : Nat) : BufTy := match i % 128 with
  | 0 => ⟨S1x2x32x4096, .f32⟩
  | 1 => ⟨S2x2x32x4096, .f32⟩
  | _ => ⟨S32x4096, .f32⟩

abbrev hbmTy (i : Nat) : BufTy := match i / 128 with
  | 0 => hbmTy0_0 i
  | 1 => hbmTy0_1 i
  | _ => ⟨S32x4096, .f32⟩

abbrev bufTy : (tb : Table) → Fin (tcTables nBuf tb) → BufTy
  | .hbm, ⟨i, _⟩ => hbmTy i
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst : Ref sig .tc := ⟨.hbm, 36, rfl⟩
abbrev main_v29 : Ref sig .tc := ⟨.hbm, 37, rfl⟩
abbrev main_v30 : Ref sig .tc := ⟨.hbm, 38, rfl⟩
abbrev main_cst_0 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_1 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_cst_5 : Ref sig .tc := ⟨.hbm, 93, rfl⟩
abbrev main_v80 : Ref sig .tc := ⟨.hbm, 94, rfl⟩
abbrev main_v81 : Ref sig .tc := ⟨.hbm, 95, rfl⟩
abbrev main_cst_6 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_cst_7 : Ref sig .tc := ⟨.hbm, 102, rfl⟩
abbrev main_v87 : Ref sig .tc := ⟨.hbm, 103, rfl⟩
abbrev main_v88 : Ref sig .tc := ⟨.hbm, 104, rfl⟩
abbrev main_cst_8 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_cst_9 : Ref sig .tc := ⟨.hbm, 113, rfl⟩
abbrev main_v96 : Ref sig .tc := ⟨.hbm, 114, rfl⟩
abbrev main_v97 : Ref sig .tc := ⟨.hbm, 115, rfl⟩
abbrev main_cst_10 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩

abbrev nD : Nat := 1
abbrev τ : Topo := Topo.v7x

variable {F : FTy → Type} [FloatOps F]

class Facts₀ : Prop where
  slices_S2x32x4096_S1x32x4096_0_0_0 : S2x32x4096.Slices ![0, 0, 0] S1x32x4096
  shapeCasts_S1x32x4096_S32x4096 : S1x32x4096.ShapeCasts S32x4096
  slices_S2x16384x4096_S1x16384x4096_0_0_0 : S2x16384x4096.Slices ![0, 0, 0] S1x16384x4096
  shapeCasts_S1x16384x4096_S16384x4096 : S1x16384x4096.ShapeCasts S16384x4096
  slices_S2x16384_S1x16384_0_0 : S2x16384.Slices ![0, 0] S1x16384
  shapeCasts_S1x16384_S16384 : S1x16384.ShapeCasts S16384
  transposes_S16384x4096_S4096x16384_1_0 : S16384x4096.Transposes [1, 0] S4096x16384
  bcast_S16384_S1x16384_1 : S16384.BroadcastsInDim S1x16384 (![1] : Fin 1 → Fin S1x16384.rank)
  bcast_S1x16384_S32x16384_0_1 : S1x16384.BroadcastsInDim S32x16384 (![0, 1] : Fin 2 → Fin S32x16384.rank)
  slices_S32x16384_S32x4096_0_0 : S32x16384.Slices ![0, 0] S32x4096
  slices_S32x16384_S32x4096_0_4096 : S32x16384.Slices ![0, 4096] S32x4096
  slices_S32x16384_S32x4096_0_8192 : S32x16384.Slices ![0, 8192] S32x4096
  slices_S32x16384_S32x4096_0_12288 : S32x16384.Slices ![0, 12288] S32x4096
  bcast_S_S32x4096 : S_.BroadcastsInDim S32x4096 (![] : Fin 0 → Fin S32x4096.rank)
  slices_S2x32x4096_S1x32x4096_1_0_0 : S2x32x4096.Slices ![1, 0, 0] S1x32x4096
  slices_S2x16384x4096_S1x16384x4096_1_0_0 : S2x16384x4096.Slices ![1, 0, 0] S1x16384x4096
  slices_S2x16384_S1x16384_1_0 : S2x16384.Slices ![1, 0] S1x16384
  bcast_S32x4096_S1x32x4096_1_2 : S32x4096.BroadcastsInDim S1x32x4096 (![1, 2] : Fin 2 → Fin S1x32x4096.rank)
  concatenates_S1x32x4096_S1x32x4096_S2x32x4096_d0 : Shape.Concatenates [S1x32x4096, S1x32x4096] S2x32x4096 0
  bcast_S2x32x4096_S1x2x32x4096_1_2_3 : S2x32x4096.BroadcastsInDim S1x2x32x4096 (![1, 2, 3] : Fin 3 → Fin S1x2x32x4096.rank)
  concatenates_S1x2x32x4096_S1x2x32x4096_S2x2x32x4096_d0 : Shape.Concatenates [S1x2x32x4096, S1x2x32x4096] S2x2x32x4096 0
  dot_S32x4096_S4096x16384_S32x16384_1_0_0_1_n_n_wf : DotDims.WF S32x4096 S4096x16384 S32x16384 [1] [0] [0] [1] [] []

variable [Facts₀]

def dot_S32x4096_S4096x16384_S32x16384_1_0_0_1_n_n : DotDims S32x4096 S4096x16384 S32x16384 where
  lhsContracting := [1]
  rhsContracting := [0]
  lhsNonContracting := [0]
  rhsNonContracting := [1]
  lhsBatch := []
  rhsBatch := []
  wf := dot_S32x4096_S4096x16384_S32x16384_1_0_0_1_n_n_wf

class Facts : Prop extends Facts₀ where

variable [Facts]
-- ==== Proof.KernelTile.lean ====
/-
  What one grid point of the gates kernel stores, entry by entry, over the extended reals.

  The body loads the whole [32, 4096] input x and hidden state h, a [256, 4096] tile of each weight matrix and a
  [1, 256] tile of each bias, and stores the [32, 256] tile
      (x · Wih_tileᵀ + h · Whh_tileᵀ) + bih_tile + bhh_tile,
  the two products contracted over the last axis of both operands into a zero accumulator. Roundings to bf16 and
  shape casts to the same shape are the identity here, so entry (b, n) of the tile is
      (sum over k of x[b,k] * Wih_tile[n,k]) + (sum over k of h[b,k] * Whh_tile[n,k]) + bih_tile[0,n] + bhh_tile[0,n].
  The two regions' bodies are the same arithmetic (the second casts x to its own shape once more).
-/
import proofs.«124540_j17918603559185_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Tile

open Cert.KernelIdeal Cert.KernelIdeal.Gen Idealize.ShloMosaic Idealize.ShloMosaic.TcCoe

/-- Entry `k` of the batch row of tile entry `j`. -/
abbrev rowB (j : S32x256.Idx) (k : Fin 4096) : S32x4096.Idx := fun a => match a with
  | ⟨0, _⟩ => ⟨(j 0).val, (j 0).isLt⟩
  | ⟨1, _⟩ => ⟨k.val, k.isLt⟩
/-- Entry `k` of the weight-tile row of tile entry `j`'s gate unit. -/
abbrev unitB (j : S32x256.Idx) (k : Fin 4096) : S256x4096.Idx := fun a => match a with
  | ⟨0, _⟩ => ⟨(j 1).val, (j 1).isLt⟩
  | ⟨1, _⟩ => ⟨k.val, k.isLt⟩
/-- The bias-tile entry of that gate unit. -/
abbrev biasB (j : S32x256.Idx) : S1x256.Idx := fun a => match a with
  | ⟨0, _⟩ => ⟨0, Nat.one_pos⟩
  | ⟨1, _⟩ => ⟨(j 1).val, (j 1).isLt⟩

local notation "D" => dot_S32x4096_S256x4096_S32x256_1_1_0_0_n_n

theorem lhs_row (i : S32x256.Idx) (q : (D).contr.Idx) : ((D).lhsIdx i q 0).val = (i 0).val := by
  unfold DotDims.lhsIdx
  rw [dif_neg (show ¬(0 : Fin S32x4096.rank) ∈ (D).lhsBatch by decide), dif_pos (show (0 : Fin S32x4096.rank) ∈ (D).lhsNonContracting by decide)]
  rfl
theorem lhs_contracted (i : S32x256.Idx) (q : (D).contr.Idx) : ((D).lhsIdx i q 1).val = (q ⟨0, by decide⟩).val :=
  (D).lhsIdx_val_of_single rfl i q
theorem rhs_unit (i : S32x256.Idx) (q : (D).contr.Idx) : ((D).rhsIdx i q 0).val = (i 1).val := by
  unfold DotDims.rhsIdx
  rw [dif_neg (show ¬(0 : Fin S256x4096.rank) ∈ (D).rhsBatch by decide), dif_pos (show (0 : Fin S256x4096.rank) ∈ (D).rhsNonContracting by decide)]
  rfl
theorem rhs_contracted (i : S32x256.Idx) (q : (D).contr.Idx) : ((D).rhsIdx i q 1).val = (q ⟨0, by decide⟩).val :=
  (D).rhsIdx_val_of_single rfl i q

/-- The tile product into a zero accumulator, at an entry: a sum over the 4096 contracted positions. -/
theorem matmul_at {φ₁ φ₂ : FTy} (l : FVec Ideal S32x4096 φ₁) (r : FVec Ideal S256x4096 φ₂) (j : S32x256.Idx) :
    matmul (F := Ideal) (D) none l r (constant S32x256 .f32 0x00000000#32) j = ∑ k : Fin 4096, l (rowB j k) * r (unitB j k) := by
  show FloatOps.matmul (D) none l r (constant S32x256 .f32 0x00000000#32) j = _
  rw [Ideal.matmul_constant_zero_apply, ← Equiv.sum_comp (ValueIdx.contrEquiv1 (D) 4096 rfl rfl).symm]
  refine Finset.sum_congr rfl fun k _ => ?_
  have hk := ValueIdx.contrEquiv1_symm_val (D) 4096 rfl rfl k
  have el : (D).lhsIdx j ((ValueIdx.contrEquiv1 (D) 4096 rfl rfl).symm k) = rowB j k := funext fun a => Fin.ext (by
    match a with
    | ⟨0, _⟩ => exact lhs_row _ _
    | ⟨1, _⟩ => exact (lhs_contracted _ _).trans hk)
  have er : (D).rhsIdx j ((ValueIdx.contrEquiv1 (D) 4096 rfl rfl).symm k) = unitB j k := funext fun a => Fin.ext (by
    match a with
    | ⟨0, _⟩ => exact rhs_unit _ _
    | ⟨1, _⟩ => exact (rhs_contracted _ _).trans hk)
  rw [el, er]

/-- A [1, 256] bias tile broadcast over the 32 rows, at an entry. -/
theorem bias_at (b : FVec Ideal S1x256 .f32) (j : S32x256.Idx) :
    broadcastTo S32x256 b broadcasts_S1x256_S32x256 j = b (biasB j) :=
  broadcastTo_apply b broadcasts_S1x256_S32x256 j (biasB j) (fun a => match a with
    | ⟨0, _⟩ => by show 0 = if (1 : Nat) = 1 then 0 else _; rw [if_pos rfl]
    | ⟨1, _⟩ => by show (j 1).val = if (256 : Nat) = 1 then 0 else (j 1).val; rw [if_neg (by decide)])

/-- The first region's stored tile at an entry. -/
theorem pay0_at (x0 x1 : Vec Ideal S32x4096 .f32) (x2 x3 : Vec Ideal S256x4096 .f32) (x4 x5 : Vec Ideal S1x256 .f32) (j : S32x256.Idx) :
    k0_pay1 (F := Ideal) x0 x1 x2 x3 x4 x5 j
      = ((∑ k : Fin 4096, x0 (rowB j k) * x2 (unitB j k)) + (∑ k : Fin 4096, x1 (rowB j k) * x3 (unitB j k))) + x4 (biasB j) + x5 (biasB j) := by
  unfold k0_pay1
  simp only [shapeCast_self]
  refine (ValueIdx.addf_apply _ _ j).trans ?_
  refine congrArg₂ (· + ·) ((ValueIdx.addf_apply _ _ j).trans ?_) (bias_at x5 j)
  refine congrArg₂ (· + ·) ((ValueIdx.addf_apply _ _ j).trans ?_) (bias_at x4 j)
  exact congrArg₂ (· + ·) (matmul_at _ _ j) (matmul_at _ _ j)

/-- The second region's stored tile at an entry: the same arithmetic. -/
theorem pay1_at (x0 x1 : Vec Ideal S32x4096 .f32) (x2 x3 : Vec Ideal S256x4096 .f32) (x4 x5 : Vec Ideal S1x256 .f32) (j : S32x256.Idx) :
    k1_pay1 (F := Ideal) x0 x1 x2 x3 x4 x5 j
      = ((∑ k : Fin 4096, x0 (rowB j k) * x2 (unitB j k)) + (∑ k : Fin 4096, x1 (rowB j k) * x3 (unitB j k))) + x4 (biasB j) + x5 (biasB j) := by
  unfold k1_pay1
  simp only [shapeCast_self]
  refine (ValueIdx.addf_apply _ _ j).trans ?_
  refine congrArg₂ (· + ·) ((ValueIdx.addf_apply _ _ j).trans ?_) (bias_at x5 j)
  refine congrArg₂ (· + ·) ((ValueIdx.addf_apply _ _ j).trans ?_) (bias_at x4 j)
  exact congrArg₂ (· + ·) (matmul_at _ _ j) (matmul_at _ _ j)

end Cert.KernelIdeal.Tile

end
-- ==== Proof.Cell.lean ====
/-
  One step of a two-layer LSTM over a batch of 32 rows and 4096 hidden units, as plain functions of arrays.

  A layer's gate pre-activations form a [32, 16384] array: entry (b, n) is
      (sum over k of x[b,k] * Wih[n,k]) + (sum over k of h[b,k] * Whh[n,k]) + bih[n] + bhh[n],
  the biases held as [1, 16384] rows. Its four column blocks of width 4096 are the input, forget, cell and output
  gates (i, f, g, o). The cell update is
      c' = sigmoid(f) * c + sigmoid(i) * tanh(g),      h' = sigmoid(o) * tanh(c'),
  with sigmoid(z) = 1 / (1 + exp(-z)). The program's result stacks (h'_1, h'_2) over (c'_1, c'_2) into a
  [2, 2, 32, 4096] array. Everything but the gate sums is stated at any float instance; the gate sums are stated
  at the extended reals, where a sum has no order.
-/
import Idealize.ShloMosaic.PureOps
import Idealize.ShloMosaic.PureOps.Ideal
import Idealize.ShloMosaic.PureOps.Ideal.Laws
import Idealize.ShloMosaic.Lib.ValueIdx
import Idealize.ShloMosaic.Lib.Pipeline.Value

noncomputable section

namespace Cert.Lstm

open Idealize.ShloMosaic

/-- A layer's input, hidden state and cell state. -/
abbrev Sx : Shape := ⟨2, ![32, 4096]⟩
/-- A layer's weight matrix: one row of 4096 per gate unit. -/
abbrev Sw : Shape := ⟨2, ![16384, 4096]⟩
/-- A layer's bias, as a row. -/
abbrev Sb : Shape := ⟨2, ![1, 16384]⟩
/-- The gate pre-activations. -/
abbrev Sg : Shape := ⟨2, ![32, 16384]⟩
abbrev S0 : Shape := ⟨0, ![]⟩
abbrev S1x : Shape := ⟨3, ![1, 32, 4096]⟩
abbrev S2x : Shape := ⟨3, ![2, 32, 4096]⟩
abbrev S12x : Shape := ⟨4, ![1, 2, 32, 4096]⟩
abbrev S22x : Shape := ⟨4, ![2, 2, 32, 4096]⟩
/-- The two layers' weight matrices, stacked, and one layer's as a [1, …] slab. -/
abbrev S2w : Shape := ⟨3, ![2, 16384, 4096]⟩
abbrev S1w : Shape := ⟨3, ![1, 16384, 4096]⟩
/-- The two layers' biases, stacked, and one layer's as a vector. -/
abbrev S2b : Shape := ⟨2, ![2, 16384]⟩
abbrev Sv : Shape := ⟨1, ![16384]⟩

theorem slice_i : Sg.Slices ![0, 0] Sx := by decide
theorem slice_f : Sg.Slices ![0, 4096] Sx := by decide
theorem slice_g : Sg.Slices ![0, 8192] Sx := by decide
theorem slice_o : Sg.Slices ![0, 12288] Sx := by decide
theorem splat : S0.BroadcastsInDim Sx (![] : Fin 0 → Fin Sx.rank) := by decide
theorem lift1 : Sx.BroadcastsInDim S1x (![1, 2] : Fin 2 → Fin S1x.rank) := by decide
theorem lift2 : S2x.BroadcastsInDim S12x (![1, 2, 3] : Fin 3 → Fin S12x.rank) := by decide
theorem cat1 : Shape.Concatenates [S1x, S1x] S2x 0 := by decide
theorem cat2 : Shape.Concatenates [S12x, S12x] S22x 0 := by decide
theorem state_at0 : S2x.Slices ![0, 0, 0] S1x := by decide
theorem state_at1 : S2x.Slices ![1, 0, 0] S1x := by decide
theorem state_flat : S1x.ShapeCasts Sx := by decide
theorem weight_at0 : S2w.Slices ![0, 0, 0] S1w := by decide
theorem weight_at1 : S2w.Slices ![1, 0, 0] S1w := by decide
theorem weight_flat : S1w.ShapeCasts Sw := by decide
theorem bias_at0 : S2b.Slices ![0, 0] Sb := by decide
theorem bias_at1 : S2b.Slices ![1, 0] Sb := by decide
theorem bias_flat : Sb.ShapeCasts Sv := by decide
theorem bias_row : Sv.ShapeCasts Sb := by decide
theorem bias_lift : Sv.BroadcastsInDim Sb (![1] : Fin 1 → Fin Sb.rank) := by decide

section AnyFloat

variable {F : FTy → Type} [FloatOps F]

/-- The constant array of ones. -/
def ones : FVec F Sx .f32 := broadcastInDim Sx ![] splat (constant S0 .f32 0x3F800000#32)

/-- The logistic function, as the program spells it: 1 / (1 + exp(-z)). -/
def sigmoid (z : FVec F Sx .f32) : FVec F Sx .f32 := Host.divf ones (addf ones (Host.exp (Host.negf z)))

/-- The new cell state from the gate pre-activations `g` and the old cell state `c`. -/
def newC (g : FVec F Sg .f32) (c : FVec F Sx .f32) : FVec F Sx .f32 :=
  addf (mulf (sigmoid (extractStridedSlice Sx ![0, 4096] g slice_f)) c)
    (mulf (sigmoid (extractStridedSlice Sx ![0, 0] g slice_i)) (Host.tanh (extractStridedSlice Sx ![0, 8192] g slice_g)))

/-- The new hidden state. -/
def newH (g : FVec F Sg .f32) (c : FVec F Sx .f32) : FVec F Sx .f32 :=
  mulf (sigmoid (extractStridedSlice Sx ![0, 12288] g slice_o)) (Host.tanh (newC g c))

/-- The result: the two layers' hidden states stacked, over the two layers' cell states stacked. -/
def stack (h1 h2 c1 c2 : FVec F Sx .f32) : FVec F S22x .f32 :=
  concatenate S22x 0
    [⟨S12x, broadcastInDim S12x ![1, 2, 3] lift2 (concatenate S2x 0 [⟨S1x, broadcastInDim S1x ![1, 2] lift1 h1⟩, ⟨S1x, broadcastInDim S1x ![1, 2] lift1 h2⟩] cat1)⟩,
     ⟨S12x, broadcastInDim S12x ![1, 2, 3] lift2 (concatenate S2x 0 [⟨S1x, broadcastInDim S1x ![1, 2] lift1 c1⟩, ⟨S1x, broadcastInDim S1x ![1, 2] lift1 c2⟩] cat1)⟩] cat2

/-- Layer 0's and layer 1's [32, 4096] state out of a stacked [2, 32, 4096] array. -/
def state0 (a : FVec F S2x .f32) : FVec F Sx .f32 := shapeCast Sx (extractStridedSlice S1x ![0, 0, 0] a state_at0) state_flat
def state1 (a : FVec F S2x .f32) : FVec F Sx .f32 := shapeCast Sx (extractStridedSlice S1x ![1, 0, 0] a state_at1) state_flat
/-- Layer 0's and layer 1's weight matrix out of a stacked [2, 16384, 4096] array. -/
def weight0 (a : FVec F S2w .f32) : FVec F Sw .f32 := shapeCast Sw (extractStridedSlice S1w ![0, 0, 0] a weight_at0) weight_flat
def weight1 (a : FVec F S2w .f32) : FVec F Sw .f32 := shapeCast Sw (extractStridedSlice S1w ![1, 0, 0] a weight_at1) weight_flat
/-- Layer 0's and layer 1's bias vector out of a stacked [2, 16384] array. -/
def bias0 (a : FVec F S2b .f32) : FVec F Sv .f32 := shapeCast Sv (extractStridedSlice Sb ![0, 0] a bias_at0) bias_flat
def bias1 (a : FVec F S2b .f32) : FVec F Sv .f32 := shapeCast Sv (extractStridedSlice Sb ![1, 0] a bias_at1) bias_flat
/-- A bias vector as a [1, 16384] row, by a reshape. -/
def rowOf (v : FVec F Sv .f32) : FVec F Sb .f32 := shapeCast Sb v bias_row

/-- The same row by a broadcast along a new leading axis of size one: entry (0, n) is entry n either way. -/
theorem rowOf_eq_broadcast (v : FVec F Sv .f32) : broadcastInDim Sb ![1] bias_lift v = rowOf v := by
  funext i
  have hi : (i 1).val < 16384 := (i 1).isLt
  have h0 : (i 0).val < 1 := (i 0).isLt
  unfold rowOf
  rw [broadcastInDim_apply _ bias_lift v i (ValueIdx.ix1 ⟨(i 1).val, hi⟩) (fun a => match a with
      | ⟨0, _⟩ => by show (i 1).val = if (16384 : Nat) = 1 then 0 else (i 1).val; rw [if_neg (by decide)]),
    shapeCast_apply v bias_row i (ValueIdx.ix1 ⟨(i 1).val, hi⟩) (by
      rw [Shape.rowMajor_val_one, Shape.rowMajor_val_two]
      show (i 1).val = (i 0).val * 16384 + (i 1).val
      omega)]

end AnyFloat

/-! ## The gate pre-activations, index by index -/

/-- Entry `k` of the batch row that gate entry `i` belongs to. -/
abbrev rowAt (i : Sg.Idx) (k : Fin 4096) : Sx.Idx := fun a => match a with
  | ⟨0, _⟩ => ⟨(i 0).val, (i 0).isLt⟩
  | ⟨1, _⟩ => ⟨k.val, k.isLt⟩
/-- Entry `k` of the weight row of the gate unit that gate entry `i` belongs to. -/
abbrev unitAt (i : Sg.Idx) (k : Fin 4096) : Sw.Idx := fun a => match a with
  | ⟨0, _⟩ => ⟨(i 1).val, (i 1).isLt⟩
  | ⟨1, _⟩ => ⟨k.val, k.isLt⟩
/-- The bias entry of that gate unit. -/
abbrev biasAt (i : Sg.Idx) : Sb.Idx := fun a => match a with
  | ⟨0, _⟩ => ⟨0, Nat.one_pos⟩
  | ⟨1, _⟩ => ⟨(i 1).val, (i 1).isLt⟩

/-- The gate pre-activations of one layer over the extended reals. -/
def gates (x h : Sx.Idx → EReal) (wi wh : Sw.Idx → EReal) (bi bh : Sb.Idx → EReal) : Sg.Idx → EReal := fun i =>
  ((∑ k : Fin 4096, x (rowAt i k) * wi (unitAt i k)) + (∑ k : Fin 4096, h (rowAt i k) * wh (unitAt i k))) + bi (biasAt i) + bh (biasAt i)

/-- The same with the first bias added before the second product sum: addition of extended reals is commutative and
    associative, whatever is infinite. -/
theorem gates_reordered (x h : Sx.Idx → EReal) (wi wh : Sw.Idx → EReal) (bi bh : Sb.Idx → EReal) (i : Sg.Idx) :
    ((∑ k : Fin 4096, x (rowAt i k) * wi (unitAt i k)) + bi (biasAt i)) + (∑ k : Fin 4096, h (rowAt i k) * wh (unitAt i k)) + bh (biasAt i)
      = gates x h wi wh bi bh i := by
  unfold gates
  rw [add_right_comm (∑ k : Fin 4096, x (rowAt i k) * wi (unitAt i k))]

/-! ## The two layers -/

section TwoLayers

variable (a0 : Sx.Idx → EReal) (a1 a2 : S2x.Idx → EReal) (a3 a4 : S2w.Idx → EReal) (a5 a6 : S2b.Idx → EReal)

/-- Layer 0's gate pre-activations: the input against layer 0's slices of the stacked arguments. -/
def gates0 : Sg.Idx → EReal :=
  gates a0 (state0 (F := Ideal) a1) (weight0 (F := Ideal) a3) (weight0 (F := Ideal) a4) (rowOf (F := Ideal) (bias0 (F := Ideal) a5)) (rowOf (F := Ideal) (bias0 (F := Ideal) a6))
/-- Layer 0's new hidden and cell state. -/
def hidden0 : Sx.Idx → EReal := newH (F := Ideal) (gates0 a0 a1 a3 a4 a5 a6) (state0 (F := Ideal) a2)
def cell0 : Sx.Idx → EReal := newC (F := Ideal) (gates0 a0 a1 a3 a4 a5 a6) (state0 (F := Ideal) a2)
/-- Layer 1's gate pre-activations: layer 0's new hidden state against layer 1's slices. -/
def gates1 : Sg.Idx → EReal :=
  gates (hidden0 a0 a1 a2 a3 a4 a5 a6) (state1 (F := Ideal) a1) (weight1 (F := Ideal) a3) (weight1 (F := Ideal) a4) (rowOf (F := Ideal) (bias1 (F := Ideal) a5)) (rowOf (F := Ideal) (bias1 (F := Ideal) a6))
/-- The program's result. -/
def lstm : S22x.Idx → EReal :=
  stack (F := Ideal) (hidden0 a0 a1 a2 a3 a4 a5 a6) (newH (F := Ideal) (gates1 a0 a1 a2 a3 a4 a5 a6) (state1 (F := Ideal) a2))
    (cell0 a0 a1 a2 a3 a4 a5 a6) (newC (F := Ideal) (gates1 a0 a1 a2 a3 a4 a5 a6) (state1 (F := Ideal) a2))

end TwoLayers

end Cert.Lstm

end
-- ==== Proof.KernelRegion0.lean ====
/-
  Region 0 of the idealized kernel program: its output array, whatever the buffers hold when the region is entered.

  Grid point t of 64 reads the whole input and hidden state, rows 256 t … 256 t + 255 of each weight matrix and
  columns 256 t … 256 t + 255 of each bias row, and writes back columns 256 t … 256 t + 255 of the [32, 16384]
  output. An entry of a block sits at (block index) * (block size) + (position in the block) on each axis, so the
  tile entry (b, n) of point t is the gate pre-activation (b, 256 t + n) of the whole arrays; the 64 column blocks
  tile the output, hence the output array ends as the gate pre-activations of the arrays the region found.
-/
import proofs.«124540_j17918603559185_2_alg».proof.Proof.Gen.KernelIdeal.Frame
import proofs.«124540_j17918603559185_2_alg».proof.Proof.KernelTile
import proofs.«124540_j17918603559185_2_alg».proof.Proof.Cell

set_option maxRecDepth 16384

noncomputable section

namespace Cert.KernelIdeal.Region0

open Cert.KernelIdeal Cert.KernelIdeal.Gen Cert.KernelIdeal.Tile Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps, decided over the 64 grid points: the input and the hidden state are one block; point `t`
    takes row block `t` of the weights and column block `t` of the biases and of the output. -/
theorem block_index : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

/-! ## Each input block read where the output block's entry says -/

theorem blk_x (c : Dev nD) (t : Fin cfg0.N) (j : S32x256.Idx) (k : Fin 4096) :
    iblk0 V c 0 t (rowB j k) = V c main_arg0 (Lstm.rowAt (((cfg0.win 6).blk t).view.emb j) k) := by
  obtain ⟨e00, e01, e10, e11, e20, e21, e30, e31, e40, e41, e50, e51, e60, e61⟩ := block_index t
  show V c main_arg0 (((cfg0.win 0).blk t).view.emb (rowB j k)) = _
  refine congrArg _ (funext fun a => Fin.ext ?_)
  match a with
  | ⟨0, _⟩ => show win0_0.index t (0 : Fin 2) * 32 + 1 * (j 0).val = win0_6.index t (0 : Fin 2) * 32 + 1 * (j 0).val; omega
  | ⟨1, _⟩ => show win0_0.index t (1 : Fin 2) * 4096 + 1 * k.val = k.val; omega

theorem blk_h (c : Dev nD) (t : Fin cfg0.N) (j : S32x256.Idx) (k : Fin 4096) :
    iblk0 V c 1 t (rowB j k) = V c main_v1 (Lstm.rowAt (((cfg0.win 6).blk t).view.emb j) k) := by
  obtain ⟨e00, e01, e10, e11, e20, e21, e30, e31, e40, e41, e50, e51, e60, e61⟩ := block_index t
  show V c main_v1 (((cfg0.win 1).blk t).view.emb (rowB j k)) = _
  refine congrArg _ (funext fun a => Fin.ext ?_)
  match a with
  | ⟨0, _⟩ => show win0_1.index t (0 : Fin 2) * 32 + 1 * (j 0).val = win0_6.index t (0 : Fin 2) * 32 + 1 * (j 0).val; omega
  | ⟨1, _⟩ => show win0_1.index t (1 : Fin 2) * 4096 + 1 * k.val = k.val; omega

theorem blk_wi (c : Dev nD) (t : Fin cfg0.N) (j : S32x256.Idx) (k : Fin 4096) :
    iblk0 V c 2 t (unitB j k) = V c main_v5 (Lstm.unitAt (((cfg0.win 6).blk t).view.emb j) k) := by
  obtain ⟨e00, e01, e10, e11, e20, e21, e30, e31, e40, e41, e50, e51, e60, e61⟩ := block_index t
  show V c main_v5 (((cfg0.win 2).blk t).view.emb (unitB j k)) = _
  refine congrArg _ (funext fun a => Fin.ext ?_)
  match a with
  | ⟨0, _⟩ => show win0_2.index t (0 : Fin 2) * 256 + 1 * (j 1).val = win0_6.index t (1 : Fin 2) * 256 + 1 * (j 1).val; omega
  | ⟨1, _⟩ => show win0_2.index t (1 : Fin 2) * 4096 + 1 * k.val = k.val; omega

theorem blk_wh (c : Dev nD) (t : Fin cfg0.N) (j : S32x256.Idx) (k : Fin 4096) :
    iblk0 V c 3 t (unitB j k) = V c main_v7 (Lstm.unitAt (((cfg0.win 6).blk t).view.emb j) k) := by
  obtain ⟨e00, e01, e10, e11, e20, e21, e30, e31, e40, e41, e50, e51, e60, e61⟩ := block_index t
  show V c main_v7 (((cfg0.win 3).blk t).view.emb (unitB j k)) = _
  refine congrArg _ (funext fun a => Fin.ext ?_)
  match a with
  | ⟨0, _⟩ => show win0_3.index t (0 : Fin 2) * 256 + 1 * (j 1).val = win0_6.index t (1 : Fin 2) * 256 + 1 * (j 1).val; omega
  | ⟨1, _⟩ => show win0_3.index t (1 : Fin 2) * 4096 + 1 * k.val = k.val; omega

theorem blk_bi (c : Dev nD) (t : Fin cfg0.N) (j : S32x256.Idx) :
    iblk0 V c 4 t (biasB j) = V c main_v12 (Lstm.biasAt (((cfg0.win 6).blk t).view.emb j)) := by
  obtain ⟨e00, e01, e10, e11, e20, e21, e30, e31, e40, e41, e50, e51, e60, e61⟩ := block_index t
  show V c main_v12 (((cfg0.win 4).blk t).view.emb (biasB j)) = _
  refine congrArg _ (funext fun a => Fin.ext ?_)
  match a with
  | ⟨0, _⟩ => show win0_4.index t (0 : Fin 2) * 1 + 1 * 0 = 0; omega
  | ⟨1, _⟩ => show win0_4.index t (1 : Fin 2) * 256 + 1 * (j 1).val = win0_6.index t (1 : Fin 2) * 256 + 1 * (j 1).val; omega

theorem blk_bh (c : Dev nD) (t : Fin cfg0.N) (j : S32x256.Idx) :
    iblk0 V c 5 t (biasB j) = V c main_v13 (Lstm.biasAt (((cfg0.win 6).blk t).view.emb j)) := by
  obtain ⟨e00, e01, e10, e11, e20, e21, e30, e31, e40, e41, e50, e51, e60, e61⟩ := block_index t
  show V c main_v13 (((cfg0.win 5).blk t).view.emb (biasB j)) = _
  refine congrArg _ (funext fun a => Fin.ext ?_)
  match a with
  | ⟨0, _⟩ => show win0_5.index t (0 : Fin 2) * 1 + 1 * 0 = 0; omega
  | ⟨1, _⟩ => show win0_5.index t (1 : Fin 2) * 256 + 1 * (j 1).val = win0_6.index t (1 : Fin 2) * 256 + 1 * (j 1).val; omega

/-! ## What a point writes back, the cover, the array -/

/-- What point `t` writes back is block `t` of the gate pre-activations of the arrays the region found. -/
theorem written_back (c : Dev nD) (t : Fin cfg0.N) :
    (dat0 V c).flushed 6 t = ((cfg0.win 6).blk t).view.read (Elt Ideal)
      (Lstm.gates (V c main_arg0) (V c main_v1) (V c main_v5) (V c main_v7) (V c main_v12) (V c main_v13)) := by
  show (cfg0.win 6).cut (grid0.coords t) ((dat0 V c).after 6 t) = _
  rw [after0_6]
  unfold out0_6
  rw [View.canon_unit_zero origin_zero]
  simp only [View.ld_unit_zero (S := S32x4096) origin_zero, View.ld_unit_zero (S := S256x4096) origin_zero, View.ld_unit_zero (S := S1x256) origin_zero]
  funext j
  show k0_pay1 (F := Ideal) (iblk0 V c 0 t) (iblk0 V c 1 t) (iblk0 V c 2 t) (iblk0 V c 3 t) (iblk0 V c 4 t) (iblk0 V c 5 t) j
    = Lstm.gates (V c main_arg0) (V c main_v1) (V c main_v5) (V c main_v7) (V c main_v12) (V c main_v13) (((cfg0.win 6).blk t).view.emb j)
  refine (pay0_at (iblk0 V c 0 t) (iblk0 V c 1 t) (iblk0 V c 2 t) (iblk0 V c 3 t) (iblk0 V c 4 t) (iblk0 V c 5 t) j).trans ?_
  unfold Lstm.gates
  simp only [blk_x V c t, blk_h V c t, blk_wi V c t, blk_wh V c t, blk_bi V c t, blk_bh V c t]

/-- An index of the output array is in point `t`'s block iff each coordinate is in the block's range on its axis. -/
theorem mem_column_block (t : Fin cfg0.N) (i : S32x16384.Idx) :
    i ∈ ((cfg0.win 6).blk t).view.set ↔ ∀ a : Fin 2, win0_6.index t a * S32x256.size a ≤ (i a).val ∧ (i a).val < win0_6.index t a * S32x256.size a + S32x256.size a := by
  show i ∈ ((View.whole main_v14).slice (win0_6.rect t)).set ↔ _
  rw [View.set_slice_whole, Rect.mem_set_unit]
  exact Iff.rfl

/-- Every entry of the output lies in the block of the point its column block names. -/
theorem columns_cover (i : S32x16384.Idx) : ∃ t : Fin cfg0.N, (cfg0.win 6).flush t = true ∧ i ∈ ((cfg0.win 6).blk t).view.set := by
  have hi0 : (i 0).val < 32 := (i 0).isLt
  have hi1 : (i 1).val < 16384 := (i 1).isLt
  have hN : (i 1).val / 256 < cfg0.N := by show _ < grid0.N; rw [N_0]; omega
  obtain ⟨e00, e01, e10, e11, e20, e21, e30, e31, e40, e41, e50, e51, e60, e61⟩ := block_index ⟨(i 1).val / 256, hN⟩
  have e61' : win0_6.index ⟨(i 1).val / 256, hN⟩ (1 : Fin 2) = (i 1).val / 256 := e61
  refine ⟨⟨(i 1).val / 256, hN⟩, flush0_6 _, ?_⟩
  rw [mem_column_block]
  intro a
  match a with
  | ⟨0, _⟩ => show win0_6.index ⟨(i 1).val / 256, hN⟩ (0 : Fin 2) * 32 ≤ (i 0).val ∧ (i 0).val < win0_6.index ⟨(i 1).val / 256, hN⟩ (0 : Fin 2) * 32 + 32; omega
  | ⟨1, _⟩ => show win0_6.index ⟨(i 1).val / 256, hN⟩ (1 : Fin 2) * 256 ≤ (i 1).val ∧ (i 1).val < win0_6.index ⟨(i 1).val / 256, hN⟩ (1 : Fin 2) * 256 + 256; omega

/-- The output array after the region: the gate pre-activations of the arrays the region found. -/
theorem output_eq_gates (c : Dev nD) :
    (dat0 V c).arrAt 6 cfg0.N = Lstm.gates (V c main_arg0) (V c main_v1) (V c main_v5) (V c main_v7) (V c main_v12) (V c main_v13) :=
  (dat0 V c).arrAt_eq_of_cover 6 _ (fun t _ => written_back V c t) columns_cover

end Cert.KernelIdeal.Region0

end
-- ==== Proof.KernelRegion1.lean ====
/-
  Region 1 of the idealized kernel program: its output array, whatever the buffers hold when the region is entered.

  Grid point t of 64 reads the whole input and hidden state, rows 256 t … 256 t + 255 of each weight matrix and
  columns 256 t … 256 t + 255 of each bias row, and writes back columns 256 t … 256 t + 255 of the [32, 16384]
  output. An entry of a block sits at (block index) * (block size) + (position in the block) on each axis, so the
  tile entry (b, n) of point t is the gate pre-activation (b, 256 t + n) of the whole arrays; the 64 column blocks
  tile the output, hence the output array ends as the gate pre-activations of the arrays the region found.
-/
import proofs.«124540_j17918603559185_2_alg».proof.Proof.Gen.KernelIdeal.Frame
import proofs.«124540_j17918603559185_2_alg».proof.Proof.KernelTile
import proofs.«124540_j17918603559185_2_alg».proof.Proof.Cell

set_option maxRecDepth 16384

noncomputable section

namespace Cert.KernelIdeal.Region1

open Cert.KernelIdeal Cert.KernelIdeal.Gen Cert.KernelIdeal.Tile Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps, decided over the 64 grid points: the input and the hidden state are one block; point `t`
    takes row block `t` of the weights and column block `t` of the biases and of the output. -/
theorem block_index : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = t.val
    ∧ win1_5.index t (0 : Fin 2) = 0 ∧ win1_5.index t (1 : Fin 2) = t.val
    ∧ win1_6.index t (0 : Fin 2) = 0 ∧ win1_6.index t (1 : Fin 2) = t.val :=
  (by decide +kernel : ∀ t : Fin grid1.N, _)

/-! ## Each input block read where the output block's entry says -/

theorem blk_x (c : Dev nD) (t : Fin cfg1.N) (j : S32x256.Idx) (k : Fin 4096) :
    iblk1 V c 0 t (rowB j k) = V c main_v42 (Lstm.rowAt (((cfg1.win 6).blk t).view.emb j) k) := by
  obtain ⟨e00, e01, e10, e11, e20, e21, e30, e31, e40, e41, e50, e51, e60, e61⟩ := block_index t
  show V c main_v42 (((cfg1.win 0).blk t).view.emb (rowB j k)) = _
  refine congrArg _ (funext fun a => Fin.ext ?_)
  match a with
  | ⟨0, _⟩ => show win1_0.index t (0 : Fin 2) * 32 + 1 * (j 0).val = win1_6.index t (0 : Fin 2) * 32 + 1 * (j 0).val; omega
  | ⟨1, _⟩ => show win1_0.index t (1 : Fin 2) * 4096 + 1 * k.val = k.val; omega

theorem blk_h (c : Dev nD) (t : Fin cfg1.N) (j : S32x256.Idx) (k : Fin 4096) :
    iblk1 V c 1 t (rowB j k) = V c main_v44 (Lstm.rowAt (((cfg1.win 6).blk t).view.emb j) k) := by
  obtain ⟨e00, e01, e10, e11, e20, e21, e30, e31, e40, e41, e50, e51, e60, e61⟩ := block_index t
  show V c main_v44 (((cfg1.win 1).blk t).view.emb (rowB j k)) = _
  refine congrArg _ (funext fun a => Fin.ext ?_)
  match a with
  | ⟨0, _⟩ => show win1_1.index t (0 : Fin 2) * 32 + 1 * (j 0).val = win1_6.index t (0 : Fin 2) * 32 + 1 * (j 0).val; omega
  | ⟨1, _⟩ => show win1_1.index t (1 : Fin 2) * 4096 + 1 * k.val = k.val; omega

theorem blk_wi (c : Dev nD) (t : Fin cfg1.N) (j : S32x256.Idx) (k : Fin 4096) :
    iblk1 V c 2 t (unitB j k) = V c main_v48 (Lstm.unitAt (((cfg1.win 6).blk t).view.emb j) k) := by
  obtain ⟨e00, e01, e10, e11, e20, e21, e30, e31, e40, e41, e50, e51, e60, e61⟩ := block_index t
  show V c main_v48 (((cfg1.win 2).blk t).view.emb (unitB j k)) = _
  refine congrArg _ (funext fun a => Fin.ext ?_)
  match a with
  | ⟨0, _⟩ => show win1_2.index t (0 : Fin 2) * 256 + 1 * (j 1).val = win1_6.index t (1 : Fin 2) * 256 + 1 * (j 1).val; omega
  | ⟨1, _⟩ => show win1_2.index t (1 : Fin 2) * 4096 + 1 * k.val = k.val; omega

theorem blk_wh (c : Dev nD) (t : Fin cfg1.N) (j : S32x256.Idx) (k : Fin 4096) :
    iblk1 V c 3 t (unitB j k) = V c main_v50 (Lstm.unitAt (((cfg1.win 6).blk t).view.emb j) k) := by
  obtain ⟨e00, e01, e10, e11, e20, e21, e30, e31, e40, e41, e50, e51, e60, e61⟩ := block_index t
  show V c main_v50 (((cfg1.win 3).blk t).view.emb (unitB j k)) = _
  refine congrArg _ (funext fun a => Fin.ext ?_)
  match a with
  | ⟨0, _⟩ => show win1_3.index t (0 : Fin 2) * 256 + 1 * (j 1).val = win1_6.index t (1 : Fin 2) * 256 + 1 * (j 1).val; omega
  | ⟨1, _⟩ => show win1_3.index t (1 : Fin 2) * 4096 + 1 * k.val = k.val; omega

theorem blk_bi (c : Dev nD) (t : Fin cfg1.N) (j : S32x256.Idx) :
    iblk1 V c 4 t (biasB j) = V c main_v55 (Lstm.biasAt (((cfg1.win 6).blk t).view.emb j)) := by
  obtain ⟨e00, e01, e10, e11, e20, e21, e30, e31, e40, e41, e50, e51, e60, e61⟩ := block_index t
  show V c main_v55 (((cfg1.win 4).blk t).view.emb (biasB j)) = _
  refine congrArg _ (funext fun a => Fin.ext ?_)
  match a with
  | ⟨0, _⟩ => show win1_4.index t (0 : Fin 2) * 1 + 1 * 0 = 0; omega
  | ⟨1, _⟩ => show win1_4.index t (1 : Fin 2) * 256 + 1 * (j 1).val = win1_6.index t (1 : Fin 2) * 256 + 1 * (j 1).val; omega

theorem blk_bh (c : Dev nD) (t : Fin cfg1.N) (j : S32x256.Idx) :
    iblk1 V c 5 t (biasB j) = V c main_v56 (Lstm.biasAt (((cfg1.win 6).blk t).view.emb j)) := by
  obtain ⟨e00, e01, e10, e11, e20, e21, e30, e31, e40, e41, e50, e51, e60, e61⟩ := block_index t
  show V c main_v56 (((cfg1.win 5).blk t).view.emb (biasB j)) = _
  refine congrArg _ (funext fun a => Fin.ext ?_)
  match a with
  | ⟨0, _⟩ => show win1_5.index t (0 : Fin 2) * 1 + 1 * 0 = 0; omega
  | ⟨1, _⟩ => show win1_5.index t (1 : Fin 2) * 256 + 1 * (j 1).val = win1_6.index t (1 : Fin 2) * 256 + 1 * (j 1).val; omega

/-! ## What a point writes back, the cover, the array -/

/-- What point `t` writes back is block `t` of the gate pre-activations of the arrays the region found. -/
theorem written_back (c : Dev nD) (t : Fin cfg1.N) :
    (dat1 V c).flushed 6 t = ((cfg1.win 6).blk t).view.read (Elt Ideal)
      (Lstm.gates (V c main_v42) (V c main_v44) (V c main_v48) (V c main_v50) (V c main_v55) (V c main_v56)) := by
  show (cfg1.win 6).cut (grid1.coords t) ((dat1 V c).after 6 t) = _
  rw [after1_6]
  unfold out1_6
  rw [View.canon_unit_zero origin_zero]
  simp only [View.ld_unit_zero (S := S32x4096) origin_zero, View.ld_unit_zero (S := S256x4096) origin_zero, View.ld_unit_zero (S := S1x256) origin_zero]
  funext j
  show k1_pay1 (F := Ideal) (iblk1 V c 0 t) (iblk1 V c 1 t) (iblk1 V c 2 t) (iblk1 V c 3 t) (iblk1 V c 4 t) (iblk1 V c 5 t) j
    = Lstm.gates (V c main_v42) (V c main_v44) (V c main_v48) (V c main_v50) (V c main_v55) (V c main_v56) (((cfg1.win 6).blk t).view.emb j)
  refine (pay1_at (iblk1 V c 0 t) (iblk1 V c 1 t) (iblk1 V c 2 t) (iblk1 V c 3 t) (iblk1 V c 4 t) (iblk1 V c 5 t) j).trans ?_
  unfold Lstm.gates
  simp only [blk_x V c t, blk_h V c t, blk_wi V c t, blk_wh V c t, blk_bi V c t, blk_bh V c t]

/-- An index of the output array is in point `t`'s block iff each coordinate is in the block's range on its axis. -/
theorem mem_column_block (t : Fin cfg1.N) (i : S32x16384.Idx) :
    i ∈ ((cfg1.win 6).blk t).view.set ↔ ∀ a : Fin 2, win1_6.index t a * S32x256.size a ≤ (i a).val ∧ (i a).val < win1_6.index t a * S32x256.size a + S32x256.size a := by
  show i ∈ ((View.whole main_v57).slice (win1_6.rect t)).set ↔ _
  rw [View.set_slice_whole, Rect.mem_set_unit]
  exact Iff.rfl

/-- Every entry of the output lies in the block of the point its column block names. -/
theorem columns_cover (i : S32x16384.Idx) : ∃ t : Fin cfg1.N, (cfg1.win 6).flush t = true ∧ i ∈ ((cfg1.win 6).blk t).view.set := by
  have hi0 : (i 0).val < 32 := (i 0).isLt
  have hi1 : (i 1).val < 16384 := (i 1).isLt
  have hN : (i 1).val / 256 < cfg1.N := by show _ < grid1.N; rw [N_1]; omega
  obtain ⟨e00, e01, e10, e11, e20, e21, e30, e31, e40, e41, e50, e51, e60, e61⟩ := block_index ⟨(i 1).val / 256, hN⟩
  have e61' : win1_6.index ⟨(i 1).val / 256, hN⟩ (1 : Fin 2) = (i 1).val / 256 := e61
  refine ⟨⟨(i 1).val / 256, hN⟩, flush1_6 _, ?_⟩
  rw [mem_column_block]
  intro a
  match a with
  | ⟨0, _⟩ => show win1_6.index ⟨(i 1).val / 256, hN⟩ (0 : Fin 2) * 32 ≤ (i 0).val ∧ (i 0).val < win1_6.index ⟨(i 1).val / 256, hN⟩ (0 : Fin 2) * 32 + 32; omega
  | ⟨1, _⟩ => show win1_6.index ⟨(i 1).val / 256, hN⟩ (1 : Fin 2) * 256 ≤ (i 1).val ∧ (i 1).val < win1_6.index ⟨(i 1).val / 256, hN⟩ (1 : Fin 2) * 256 + 256; omega

/-- The output array after the region: the gate pre-activations of the arrays the region found. -/
theorem output_eq_gates (c : Dev nD) :
    (dat1 V c).arrAt 6 cfg1.N = Lstm.gates (V c main_v42) (V c main_v44) (V c main_v48) (V c main_v50) (V c main_v55) (V c main_v56) :=
  (dat1 V c).arrAt_eq_of_cover 6 _ (fun t _ => written_back V c t) columns_cover

end Cert.KernelIdeal.Region1

end
-- ==== Proof.KernelHost.lean ====
/-
  The host operations of the idealized kernel program around its two regions, read from ANY buffer contents `W`.

  Before the first region: layer 0's slices of the stacked arguments. Between the regions: layer 0's cell update from
  the first region's gate pre-activations, and layer 1's slices. After the second region: layer 1's cell update and the
  stacking of the four new states into the result. Each buffer these operations write is stated as the specification's
  function of the buffers they read; no operation writes an argument buffer.
-/
import proofs.«124540_j17918603559185_2_alg».proof.Proof.Gen.KernelIdeal.Launch
import proofs.«124540_j17918603559185_2_alg».proof.Proof.Cell
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable (W : Valuation τ sig (Elt Ideal))

/-! ## Before the first region -/

theorem pre_h : after (hostOps0 (F := Ideal)) W (Proc.devRef .tc main_v1) = Lstm.state0 (F := Ideal) (W (Proc.devRef .tc main_arg1)) := by
  after_results; rfl
theorem pre_c : after (hostOps0 (F := Ideal)) W (Proc.devRef .tc main_v3) = Lstm.state0 (F := Ideal) (W (Proc.devRef .tc main_arg2)) := by
  after_results; rfl
theorem pre_wi : after (hostOps0 (F := Ideal)) W (Proc.devRef .tc main_v5) = Lstm.weight0 (F := Ideal) (W (Proc.devRef .tc main_arg3)) := by
  after_results; rfl
theorem pre_wh : after (hostOps0 (F := Ideal)) W (Proc.devRef .tc main_v7) = Lstm.weight0 (F := Ideal) (W (Proc.devRef .tc main_arg4)) := by
  after_results; rfl
theorem pre_bi : after (hostOps0 (F := Ideal)) W (Proc.devRef .tc main_v12) = Lstm.rowOf (F := Ideal) (Lstm.bias0 (F := Ideal) (W (Proc.devRef .tc main_arg5))) := by
  after_results; rfl
theorem pre_bh : after (hostOps0 (F := Ideal)) W (Proc.devRef .tc main_v13) = Lstm.rowOf (F := Ideal) (Lstm.bias0 (F := Ideal) (W (Proc.devRef .tc main_arg6))) := by
  after_results; rfl
theorem pre_arg0 : after (hostOps0 (F := Ideal)) W (Proc.devRef .tc main_arg0) = W (Proc.devRef .tc main_arg0) := by after_results
theorem pre_arg1 : after (hostOps0 (F := Ideal)) W (Proc.devRef .tc main_arg1) = W (Proc.devRef .tc main_arg1) := by after_results
theorem pre_arg2 : after (hostOps0 (F := Ideal)) W (Proc.devRef .tc main_arg2) = W (Proc.devRef .tc main_arg2) := by after_results
theorem pre_arg3 : after (hostOps0 (F := Ideal)) W (Proc.devRef .tc main_arg3) = W (Proc.devRef .tc main_arg3) := by after_results
theorem pre_arg4 : after (hostOps0 (F := Ideal)) W (Proc.devRef .tc main_arg4) = W (Proc.devRef .tc main_arg4) := by after_results
theorem pre_arg5 : after (hostOps0 (F := Ideal)) W (Proc.devRef .tc main_arg5) = W (Proc.devRef .tc main_arg5) := by after_results
theorem pre_arg6 : after (hostOps0 (F := Ideal)) W (Proc.devRef .tc main_arg6) = W (Proc.devRef .tc main_arg6) := by after_results

/-! ## Between the regions -/

theorem mid_hidden : after (hostOps1 (F := Ideal)) W (Proc.devRef .tc main_v42)
    = Lstm.newH (F := Ideal) (W (Proc.devRef .tc main_v14)) (W (Proc.devRef .tc main_v3)) := by
  after_results_simp; rfl
theorem mid_cell : after (hostOps1 (F := Ideal)) W (Proc.devRef .tc main_v34)
    = Lstm.newC (F := Ideal) (W (Proc.devRef .tc main_v14)) (W (Proc.devRef .tc main_v3)) := by
  after_results_simp; rfl
theorem mid_h : after (hostOps1 (F := Ideal)) W (Proc.devRef .tc main_v44) = Lstm.state1 (F := Ideal) (W (Proc.devRef .tc main_arg1)) := by
  after_results_simp; rfl
theorem mid_c : after (hostOps1 (F := Ideal)) W (Proc.devRef .tc main_v46) = Lstm.state1 (F := Ideal) (W (Proc.devRef .tc main_arg2)) := by
  after_results_simp; rfl
theorem mid_wi : after (hostOps1 (F := Ideal)) W (Proc.devRef .tc main_v48) = Lstm.weight1 (F := Ideal) (W (Proc.devRef .tc main_arg3)) := by
  after_results_simp; rfl
theorem mid_wh : after (hostOps1 (F := Ideal)) W (Proc.devRef .tc main_v50) = Lstm.weight1 (F := Ideal) (W (Proc.devRef .tc main_arg4)) := by
  after_results_simp; rfl
theorem mid_bi : after (hostOps1 (F := Ideal)) W (Proc.devRef .tc main_v55) = Lstm.rowOf (F := Ideal) (Lstm.bias1 (F := Ideal) (W (Proc.devRef .tc main_arg5))) := by
  after_results_simp; rfl
theorem mid_bh : after (hostOps1 (F := Ideal)) W (Proc.devRef .tc main_v56) = Lstm.rowOf (F := Ideal) (Lstm.bias1 (F := Ideal) (W (Proc.devRef .tc main_arg6))) := by
  after_results_simp; rfl

/-! ## After the second region -/

theorem post_result : after (hostOps2 (F := Ideal)) W (Proc.devRef .tc main_v94)
    = Lstm.stack (F := Ideal) (W (Proc.devRef .tc main_v42))
        (Lstm.newH (F := Ideal) (W (Proc.devRef .tc main_v57)) (W (Proc.devRef .tc main_v46)))
        (W (Proc.devRef .tc main_v34))
        (Lstm.newC (F := Ideal) (W (Proc.devRef .tc main_v57)) (W (Proc.devRef .tc main_v46))) := by
  after_results_simp; rfl

end Cert.KernelIdeal.Host

end
-- ==== Proof.KernelValue.lean ====
/-
  The idealized kernel program's result, as the two-layer specification of its arguments.

  The program's buffer contents are followed through its five segments: the host operations before the first
  region, the first region (whose output array is layer 0's gate pre-activations of what it found), the host
  operations between the regions, the second region (layer 1's gate pre-activations), and the host operations after
  it. A region changes only its output array; a host stretch changes only the buffers it writes. At the end the
  result buffer holds the specification's stacked new states of the launch contents of the arguments.
-/
import proofs.«124540_j17918603559185_2_alg».proof.Proof.Gen.KernelIdeal.Frame
import proofs.«124540_j17918603559185_2_alg».proof.Proof.KernelRegion0
import proofs.«124540_j17918603559185_2_alg».proof.Proof.KernelRegion1
import proofs.«124540_j17918603559185_2_alg».proof.Proof.KernelHost
import proofs.«124540_j17918603559185_2_alg».proof.Proof.KernelRun
import proofs.«124540_j17918603559185_2_alg».proof.Proof.Cell

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## Entering the first region: layer 0's slices, the arguments as launched -/

theorem W1_arg0 : W1 m ρ c (Proc.devRef .tc main_arg0) = (m ((c : Thread nD τ).loc main_arg0)) := Host.pre_arg0 (W0 m ρ c)
theorem W1_arg1 : W1 m ρ c (Proc.devRef .tc main_arg1) = (m ((c : Thread nD τ).loc main_arg1)) := Host.pre_arg1 (W0 m ρ c)
theorem W1_arg2 : W1 m ρ c (Proc.devRef .tc main_arg2) = (m ((c : Thread nD τ).loc main_arg2)) := Host.pre_arg2 (W0 m ρ c)
theorem W1_arg3 : W1 m ρ c (Proc.devRef .tc main_arg3) = (m ((c : Thread nD τ).loc main_arg3)) := Host.pre_arg3 (W0 m ρ c)
theorem W1_arg4 : W1 m ρ c (Proc.devRef .tc main_arg4) = (m ((c : Thread nD τ).loc main_arg4)) := Host.pre_arg4 (W0 m ρ c)
theorem W1_arg5 : W1 m ρ c (Proc.devRef .tc main_arg5) = (m ((c : Thread nD τ).loc main_arg5)) := Host.pre_arg5 (W0 m ρ c)
theorem W1_arg6 : W1 m ρ c (Proc.devRef .tc main_arg6) = (m ((c : Thread nD τ).loc main_arg6)) := Host.pre_arg6 (W0 m ρ c)
theorem W1_h : W1 m ρ c (Proc.devRef .tc main_v1) = Lstm.state0 (F := Ideal) (m ((c : Thread nD τ).loc main_arg1)) := Host.pre_h (W0 m ρ c)
theorem W1_c : W1 m ρ c (Proc.devRef .tc main_v3) = Lstm.state0 (F := Ideal) (m ((c : Thread nD τ).loc main_arg2)) := Host.pre_c (W0 m ρ c)
theorem W1_wi : W1 m ρ c (Proc.devRef .tc main_v5) = Lstm.weight0 (F := Ideal) (m ((c : Thread nD τ).loc main_arg3)) := Host.pre_wi (W0 m ρ c)
theorem W1_wh : W1 m ρ c (Proc.devRef .tc main_v7) = Lstm.weight0 (F := Ideal) (m ((c : Thread nD τ).loc main_arg4)) := Host.pre_wh (W0 m ρ c)
theorem W1_bi : W1 m ρ c (Proc.devRef .tc main_v12) = Lstm.rowOf (F := Ideal) (Lstm.bias0 (F := Ideal) (m ((c : Thread nD τ).loc main_arg5))) := Host.pre_bi (W0 m ρ c)
theorem W1_bh : W1 m ρ c (Proc.devRef .tc main_v13) = Lstm.rowOf (F := Ideal) (Lstm.bias0 (F := Ideal) (m ((c : Thread nD τ).loc main_arg6))) := Host.pre_bh (W0 m ρ c)

/-! ## Leaving the first region: its output array is layer 0's gate pre-activations -/

theorem W2_gates : W2 m ρ c (Proc.devRef .tc main_v14) = Lstm.gates0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W2_arr m ρ c 6).trans ((Region0.output_eq_gates (V1 m ρ) c).trans ?_)
  show Lstm.gates (W1 m ρ c (Proc.devRef .tc main_arg0)) (W1 m ρ c (Proc.devRef .tc main_v1)) (W1 m ρ c (Proc.devRef .tc main_v5)) (W1 m ρ c (Proc.devRef .tc main_v7))
    (W1 m ρ c (Proc.devRef .tc main_v12)) (W1 m ρ c (Proc.devRef .tc main_v13)) = _
  rw [W1_arg0, W1_h, W1_wi, W1_wh, W1_bi, W1_bh]
  rfl
theorem W2_c : W2 m ρ c (Proc.devRef .tc main_v3) = Lstm.state0 (F := Ideal) (m ((c : Thread nD τ).loc main_arg2)) := (W2_of_ne m ρ c main_v3 (by decide)).trans (W1_c m ρ c)
theorem W2_arg1 : W2 m ρ c (Proc.devRef .tc main_arg1) = (m ((c : Thread nD τ).loc main_arg1)) := (W2_of_ne m ρ c main_arg1 (by decide)).trans (W1_arg1 m ρ c)
theorem W2_arg2 : W2 m ρ c (Proc.devRef .tc main_arg2) = (m ((c : Thread nD τ).loc main_arg2)) := (W2_of_ne m ρ c main_arg2 (by decide)).trans (W1_arg2 m ρ c)
theorem W2_arg3 : W2 m ρ c (Proc.devRef .tc main_arg3) = (m ((c : Thread nD τ).loc main_arg3)) := (W2_of_ne m ρ c main_arg3 (by decide)).trans (W1_arg3 m ρ c)
theorem W2_arg4 : W2 m ρ c (Proc.devRef .tc main_arg4) = (m ((c : Thread nD τ).loc main_arg4)) := (W2_of_ne m ρ c main_arg4 (by decide)).trans (W1_arg4 m ρ c)
theorem W2_arg5 : W2 m ρ c (Proc.devRef .tc main_arg5) = (m ((c : Thread nD τ).loc main_arg5)) := (W2_of_ne m ρ c main_arg5 (by decide)).trans (W1_arg5 m ρ c)
theorem W2_arg6 : W2 m ρ c (Proc.devRef .tc main_arg6) = (m ((c : Thread nD τ).loc main_arg6)) := (W2_of_ne m ρ c main_arg6 (by decide)).trans (W1_arg6 m ρ c)

/-! ## Entering the second region: layer 0's new states, layer 1's slices -/

theorem W3_hidden : W3 m ρ c (Proc.devRef .tc main_v42) = Lstm.hidden0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (Host.mid_hidden (W2 m ρ c)).trans ?_
  rw [W2_gates, W2_c]
  rfl
theorem W3_cell : W3 m ρ c (Proc.devRef .tc main_v34) = Lstm.cell0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (Host.mid_cell (W2 m ρ c)).trans ?_
  rw [W2_gates, W2_c]
  rfl
theorem W3_h : W3 m ρ c (Proc.devRef .tc main_v44) = Lstm.state1 (F := Ideal) (m ((c : Thread nD τ).loc main_arg1)) := by
  refine (Host.mid_h (W2 m ρ c)).trans ?_
  rw [W2_arg1]
theorem W3_c : W3 m ρ c (Proc.devRef .tc main_v46) = Lstm.state1 (F := Ideal) (m ((c : Thread nD τ).loc main_arg2)) := by
  refine (Host.mid_c (W2 m ρ c)).trans ?_
  rw [W2_arg2]
theorem W3_wi : W3 m ρ c (Proc.devRef .tc main_v48) = Lstm.weight1 (F := Ideal) (m ((c : Thread nD τ).loc main_arg3)) := by
  refine (Host.mid_wi (W2 m ρ c)).trans ?_
  rw [W2_arg3]
theorem W3_wh : W3 m ρ c (Proc.devRef .tc main_v50) = Lstm.weight1 (F := Ideal) (m ((c : Thread nD τ).loc main_arg4)) := by
  refine (Host.mid_wh (W2 m ρ c)).trans ?_
  rw [W2_arg4]
theorem W3_bi : W3 m ρ c (Proc.devRef .tc main_v55) = Lstm.rowOf (F := Ideal) (Lstm.bias1 (F := Ideal) (m ((c : Thread nD τ).loc main_arg5))) := by
  refine (Host.mid_bi (W2 m ρ c)).trans ?_
  rw [W2_arg5]
theorem W3_bh : W3 m ρ c (Proc.devRef .tc main_v56) = Lstm.rowOf (F := Ideal) (Lstm.bias1 (F := Ideal) (m ((c : Thread nD τ).loc main_arg6))) := by
  refine (Host.mid_bh (W2 m ρ c)).trans ?_
  rw [W2_arg6]

/-! ## Leaving the second region: its output array is layer 1's gate pre-activations -/

theorem W4_gates : W4 m ρ c (Proc.devRef .tc main_v57) = Lstm.gates1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 6).trans ((Region1.output_eq_gates (V3 m ρ) c).trans ?_)
  show Lstm.gates (W3 m ρ c (Proc.devRef .tc main_v42)) (W3 m ρ c (Proc.devRef .tc main_v44)) (W3 m ρ c (Proc.devRef .tc main_v48)) (W3 m ρ c (Proc.devRef .tc main_v50))
    (W3 m ρ c (Proc.devRef .tc main_v55)) (W3 m ρ c (Proc.devRef .tc main_v56)) = _
  rw [W3_hidden, W3_h, W3_wi, W3_wh, W3_bi, W3_bh]
  rfl
/-- Layer 0's new hidden state is the second region's first INPUT array: the region leaves it as it found it. -/
theorem W4_hidden : W4 m ρ c (Proc.devRef .tc main_v42) = Lstm.hidden0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W4_arr m ρ c 0).trans (((dat1 (V3 m ρ) c).arrAt_in 0 rfl _).trans ((A_eq1 (V3 m ρ) c 0).trans (W3_hidden m ρ c)))
theorem W4_cell : W4 m ρ c (Proc.devRef .tc main_v34) = Lstm.cell0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (W4_of_ne m ρ c main_v34 (by decide)).trans (W3_cell m ρ c)
theorem W4_c : W4 m ρ c (Proc.devRef .tc main_v46) = Lstm.state1 (F := Ideal) (m ((c : Thread nD τ).loc main_arg2)) := (W4_of_ne m ρ c main_v46 (by decide)).trans (W3_c m ρ c)

/-! ## The result -/

/-- After the last host operations the result buffer holds the specification's result of the launch contents of the arguments. -/
theorem result : W5 m ρ c (Proc.devRef .tc main_v94) = Lstm.lstm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (Host.post_result (W4 m ρ c)).trans ?_
  rw [W4_hidden, W4_gates, W4_c, W4_cell]
  rfl

/-- The program's run with its result read: every weakly fair execution terminates, nothing faulting, with the result
    buffer at the specification's value and the argument buffers as launched. -/
theorem run : θ_run defs (onTc (τ := τ) (main (F := Ideal))) ⟨m, fun _ => 0, ρ⟩ (fun r => ∀ c : Dev nD,
      r.2.mem ((c.tc : Thread nD τ).loc main_v94) = Lstm.lstm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result m ρ c), (h c).2⟩) (GenP.run_result (F := Ideal) m ρ)

end Cert.KernelIdeal.Whole

end
-- ==== Proof.RefValue.lean ====
/-
  The idealized reference, stage by stage, is the two-layer specification.

  Its gate pre-activations are computed as ((x · Wihᵀ + bih) + h · Whhᵀ) + bhh, each product a sum over the 4096
  contracted positions of the transposed weight matrix, each bias vector broadcast to a row and then over the batch.
  Read at an entry (b, n) these are the specification's two sums and two bias entries with the first bias added
  before the second sum; commutativity and associativity of addition on the extended reals reorder them. The cell
  update and the stacking are, operation for operation, the specification's.
-/
import proofs.«124540_j17918603559185_2_alg».proof.Proof.Gen.ReferenceIdeal.Read
import proofs.«124540_j17918603559185_2_alg».proof.Proof.Cell

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem

/-! ## The stages' index functions are the specification's -/

theorem row13 (i : S32x16384.Idx) (k : Fin 4096) : lidx_main_v13 i k = Lstm.rowAt i k :=
  funext fun a => by match a with | ⟨0, _⟩ => rfl | ⟨1, _⟩ => rfl
theorem unit13 (i : S32x16384.Idx) (k : Fin 4096) : idx_main_v12 (ridx_main_v13 i k) = Lstm.unitAt i k :=
  funext fun a => by match a with | ⟨0, _⟩ => rfl | ⟨1, _⟩ => rfl
theorem row18 (i : S32x16384.Idx) (k : Fin 4096) : lidx_main_v18 i k = Lstm.rowAt i k :=
  funext fun a => by match a with | ⟨0, _⟩ => rfl | ⟨1, _⟩ => rfl
theorem unit18 (i : S32x16384.Idx) (k : Fin 4096) : idx_main_v17 (ridx_main_v18 i k) = Lstm.unitAt i k :=
  funext fun a => by match a with | ⟨0, _⟩ => rfl | ⟨1, _⟩ => rfl
theorem bias15 (i : S32x16384.Idx) : idx_main_v15 i = Lstm.biasAt i :=
  funext fun a => by match a with | ⟨0, _⟩ => rfl | ⟨1, _⟩ => rfl
theorem bias21 (i : S32x16384.Idx) : idx_main_v21 i = Lstm.biasAt i :=
  funext fun a => by match a with | ⟨0, _⟩ => rfl | ⟨1, _⟩ => rfl
theorem row64 (i : S32x16384.Idx) (k : Fin 4096) : lidx_main_v64 i k = Lstm.rowAt i k :=
  funext fun a => by match a with | ⟨0, _⟩ => rfl | ⟨1, _⟩ => rfl
theorem unit64 (i : S32x16384.Idx) (k : Fin 4096) : idx_main_v63 (ridx_main_v64 i k) = Lstm.unitAt i k :=
  funext fun a => by match a with | ⟨0, _⟩ => rfl | ⟨1, _⟩ => rfl
theorem row69 (i : S32x16384.Idx) (k : Fin 4096) : lidx_main_v69 i k = Lstm.rowAt i k :=
  funext fun a => by match a with | ⟨0, _⟩ => rfl | ⟨1, _⟩ => rfl
theorem unit69 (i : S32x16384.Idx) (k : Fin 4096) : idx_main_v68 (ridx_main_v69 i k) = Lstm.unitAt i k :=
  funext fun a => by match a with | ⟨0, _⟩ => rfl | ⟨1, _⟩ => rfl
theorem bias66 (i : S32x16384.Idx) : idx_main_v66 i = Lstm.biasAt i :=
  funext fun a => by match a with | ⟨0, _⟩ => rfl | ⟨1, _⟩ => rfl
theorem bias72 (i : S32x16384.Idx) : idx_main_v72 i = Lstm.biasAt i :=
  funext fun a => by match a with | ⟨0, _⟩ => rfl | ⟨1, _⟩ => rfl

variable (a0 : (⟨S32x4096, .f32⟩ : BufTy).Contents (Elt Ideal)) (a1 a2 : (⟨S2x32x4096, .f32⟩ : BufTy).Contents (Elt Ideal)) (a3 a4 : (⟨S2x16384x4096, .f32⟩ : BufTy).Contents (Elt Ideal)) (a5 a6 : (⟨S2x16384, .f32⟩ : BufTy).Contents (Elt Ideal))

/-! ## The gate pre-activations -/

/-- Layer 0's gate pre-activations in the reference are the specification's. -/
theorem gates0_eq : val_main_v22 (F := Ideal) a0 a1 a3 a4 a5 a6 = Lstm.gates0 a0 a1 a3 a4 a5 a6 := by
  funext i
  rw [val_main_v22_apply, val_main_v19_apply, val_main_v16_apply, val_main_v13_apply, val_main_v15_apply, val_main_v18_apply, val_main_v21_apply]
  have s1 : (∑ k : Fin 4096, a0 (lidx_main_v13 i k) * val_main_v12 (F := Ideal) a3 (ridx_main_v13 i k))
      = ∑ k : Fin 4096, a0 (Lstm.rowAt i k) * Lstm.weight0 (F := Ideal) a3 (Lstm.unitAt i k) :=
    Finset.sum_congr rfl fun k _ => by rw [val_main_v12_apply, row13, unit13]; rfl
  have s2 : (∑ k : Fin 4096, val_main_v1 (F := Ideal) a1 (lidx_main_v18 i k) * val_main_v17 (F := Ideal) a4 (ridx_main_v18 i k))
      = ∑ k : Fin 4096, Lstm.state0 (F := Ideal) a1 (Lstm.rowAt i k) * Lstm.weight0 (F := Ideal) a4 (Lstm.unitAt i k) :=
    Finset.sum_congr rfl fun k _ => by rw [val_main_v17_apply, row18, unit18]; rfl
  have e14 : val_main_v14 (F := Ideal) a5 = Lstm.rowOf (F := Ideal) (Lstm.bias0 (F := Ideal) a5) :=
    Lstm.rowOf_eq_broadcast (F := Ideal) (Lstm.bias0 (F := Ideal) a5)
  have e20 : val_main_v20 (F := Ideal) a6 = Lstm.rowOf (F := Ideal) (Lstm.bias0 (F := Ideal) a6) :=
    Lstm.rowOf_eq_broadcast (F := Ideal) (Lstm.bias0 (F := Ideal) a6)
  rw [s1, s2, e14, e20, bias15, bias21]
  exact Lstm.gates_reordered a0 (Lstm.state0 (F := Ideal) a1) (Lstm.weight0 (F := Ideal) a3) (Lstm.weight0 (F := Ideal) a4) _ _ i

/-- Layer 1's gate pre-activations in the reference are the specification's gate function of layer 0's new hidden state. -/
theorem gates1_eq : val_main_v73 (F := Ideal) a0 a1 a2 a3 a4 a5 a6
    = Lstm.gates (val_main_v50 (F := Ideal) a0 a1 a2 a3 a4 a5 a6) (Lstm.state1 (F := Ideal) a1) (Lstm.weight1 (F := Ideal) a3) (Lstm.weight1 (F := Ideal) a4)
        (Lstm.rowOf (F := Ideal) (Lstm.bias1 (F := Ideal) a5)) (Lstm.rowOf (F := Ideal) (Lstm.bias1 (F := Ideal) a6)) := by
  funext i
  rw [val_main_v73_apply, val_main_v70_apply, val_main_v67_apply, val_main_v64_apply, val_main_v66_apply, val_main_v69_apply, val_main_v72_apply]
  have s1 : (∑ k : Fin 4096, val_main_v50 (F := Ideal) a0 a1 a2 a3 a4 a5 a6 (lidx_main_v64 i k) * val_main_v63 (F := Ideal) a3 (ridx_main_v64 i k))
      = ∑ k : Fin 4096, val_main_v50 (F := Ideal) a0 a1 a2 a3 a4 a5 a6 (Lstm.rowAt i k) * Lstm.weight1 (F := Ideal) a3 (Lstm.unitAt i k) :=
    Finset.sum_congr rfl fun k _ => by rw [val_main_v63_apply, row64, unit64]; rfl
  have s2 : (∑ k : Fin 4096, val_main_v52 (F := Ideal) a1 (lidx_main_v69 i k) * val_main_v68 (F := Ideal) a4 (ridx_main_v69 i k))
      = ∑ k : Fin 4096, Lstm.state1 (F := Ideal) a1 (Lstm.rowAt i k) * Lstm.weight1 (F := Ideal) a4 (Lstm.unitAt i k) :=
    Finset.sum_congr rfl fun k _ => by rw [val_main_v68_apply, row69, unit69]; rfl
  have e65 : val_main_v65 (F := Ideal) a5 = Lstm.rowOf (F := Ideal) (Lstm.bias1 (F := Ideal) a5) :=
    Lstm.rowOf_eq_broadcast (F := Ideal) (Lstm.bias1 (F := Ideal) a5)
  have e71 : val_main_v71 (F := Ideal) a6 = Lstm.rowOf (F := Ideal) (Lstm.bias1 (F := Ideal) a6) :=
    Lstm.rowOf_eq_broadcast (F := Ideal) (Lstm.bias1 (F := Ideal) a6)
  rw [s1, s2, e65, e71, bias66, bias72]
  exact Lstm.gates_reordered (val_main_v50 (F := Ideal) a0 a1 a2 a3 a4 a5 a6) (Lstm.state1 (F := Ideal) a1) (Lstm.weight1 (F := Ideal) a3) (Lstm.weight1 (F := Ideal) a4) _ _ i

/-! ## The cell updates and the stacking: the specification's operations, one for one -/

theorem hidden0_eq : val_main_v50 (F := Ideal) a0 a1 a2 a3 a4 a5 a6
    = Lstm.newH (F := Ideal) (val_main_v22 (F := Ideal) a0 a1 a3 a4 a5 a6) (Lstm.state0 (F := Ideal) a2) := rfl
theorem cell0_eq : val_main_v42 (F := Ideal) a0 a1 a2 a3 a4 a5 a6
    = Lstm.newC (F := Ideal) (val_main_v22 (F := Ideal) a0 a1 a3 a4 a5 a6) (Lstm.state0 (F := Ideal) a2) := rfl
theorem hidden1_eq : val_main_v101 (F := Ideal) a0 a1 a2 a3 a4 a5 a6
    = Lstm.newH (F := Ideal) (val_main_v73 (F := Ideal) a0 a1 a2 a3 a4 a5 a6) (Lstm.state1 (F := Ideal) a2) := rfl
theorem cell1_eq : val_main_v93 (F := Ideal) a0 a1 a2 a3 a4 a5 a6
    = Lstm.newC (F := Ideal) (val_main_v73 (F := Ideal) a0 a1 a2 a3 a4 a5 a6) (Lstm.state1 (F := Ideal) a2) := rfl
theorem stacked_eq : val_main_v110 (F := Ideal) a0 a1 a2 a3 a4 a5 a6
    = Lstm.stack (F := Ideal) (val_main_v50 (F := Ideal) a0 a1 a2 a3 a4 a5 a6) (val_main_v101 (F := Ideal) a0 a1 a2 a3 a4 a5 a6)
        (val_main_v42 (F := Ideal) a0 a1 a2 a3 a4 a5 a6) (val_main_v93 (F := Ideal) a0 a1 a2 a3 a4 a5 a6) := rfl

/-- The reference's result is the specification's. -/
theorem result_eq : val_main_v110 (F := Ideal) a0 a1 a2 a3 a4 a5 a6 = Lstm.lstm a0 a1 a2 a3 a4 a5 a6 := by
  rw [stacked_eq, hidden1_eq, cell1_eq, gates1_eq, hidden0_eq, cell0_eq, gates0_eq]
  rfl

end Cert.ReferenceIdeal.RefValue

end
-- ==== Proof.lean ====
/-
  One step of a two-layer LSTM (batch 32, 4096 hidden units): the kernel program against its jnp reference, over the
  extended reals.

  Per layer both programs form the gate pre-activations x · Wihᵀ + h · Whhᵀ + bih + bhh and then apply the same cell
  update  c' = sigmoid(f) * c + sigmoid(i) * tanh(g),  h' = sigmoid(o) * tanh(c');  layer 1's input is layer 0's new
  hidden state, and the result stacks the new hidden states over the new cell states.

  The kernel program computes each layer's gates in a region of 64 grid points, point t producing columns
  256 t … 256 t + 255 from the whole input and hidden state and rows 256 t … 256 t + 255 of the two weight matrices,
  as (x · Wih_tileᵀ + h · Whh_tileᵀ) + bih_tile + bhh_tile; the reference computes ((x · Wihᵀ + bih) + h · Whhᵀ) + bhh
  on whole arrays. Over the extended reals a rounding to bf16 is the identity and a matrix product is a sum over the
  contracted axis, so entry by entry the two are the same four summands in two orders; addition is commutative and
  associative there whatever is infinite, so no finiteness of the inputs is used. The rest of both programs is the
  same chain of operations on equal arrays.

  The frames of the two kernel programs are their generated frame theorems; the reference's frame is its run with the
  result dropped. The idealization rewrote no operation, so nothing is owed for it.
-/
import proofs.«124540_j17918603559185_2_alg».proof.Defs
import proofs.«124540_j17918603559185_2_alg».proof.Proof.Gen.Kernel
import proofs.«124540_j17918603559185_2_alg».proof.Proof.Gen.Kernel.Frame
import proofs.«124540_j17918603559185_2_alg».proof.Proof.Gen.KernelIdeal
import proofs.«124540_j17918603559185_2_alg».proof.Proof.Gen.KernelIdeal.Frame
import proofs.«124540_j17918603559185_2_alg».proof.Proof.Gen.ReferenceIdeal
import proofs.«124540_j17918603559185_2_alg».proof.Proof.Gen.ReferenceIdeal.Run
import proofs.«124540_j17918603559185_2_alg».proof.Proof.Gen.ReferenceIdeal.Read
import proofs.«124540_j17918603559185_2_alg».proof.Proof.Gen.Pre_finite_inputs
import proofs.«124540_j17918603559185_2_alg».proof.Proof.KernelValue
import proofs.«124540_j17918603559185_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result buffer at the two-layer specification
    of the arguments: the kernel program by following its buffers through its two regions, the reference by reading
    its stages. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v110_eq (F := Ideal) m' c).trans
    ((Cert.ReferenceIdeal.RefValue.result_eq _ _ _ _ _ _ _).trans ?_)
  obtain ⟨e0, e1, e2, e3, e4, e5, e6⟩ := hagree c
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
